-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x2048 : Shape := ⟨3, ![8, 1024, 2048]⟩
abbrev S8x2048x8192 : Shape := ⟨3, ![8, 2048, 8192]⟩
abbrev S8x4096x2048 : Shape := ⟨3, ![8, 4096, 2048]⟩
abbrev S_ : Shape := ⟨0, ![]⟩

class Facts : Prop where
  bcast_S_S8x1024x2048 : S_.BroadcastsInDim S8x1024x2048 (![] : Fin 0 → Fin S8x1024x2048.rank)
  reducesTo_S8x1024x2048_S_d0_1_2 : S8x1024x2048.ReducesTo [0, 1, 2] S_
  h_S_ : 0 < S_.numel
  bcast_S_S8x2048x8192 : S_.BroadcastsInDim S8x2048x8192 (![] : Fin 0 → Fin S8x2048x8192.rank)
  reducesTo_S8x2048x8192_S_d0_1_2 : S8x2048x8192.ReducesTo [0, 1, 2] S_
  bcast_S_S8x4096x2048 : S_.BroadcastsInDim S8x4096x2048 (![] : Fin 0 → Fin S8x4096x2048.rank)
  reducesTo_S8x4096x2048_S_d0_1_2 : S8x4096x2048.ReducesTo [0, 1, 2] S_

variable [Facts]

def fn {F : FTy → Type} [FloatOps F] (main_arg0 : FVec F S8x1024x2048 .f32) (main_arg1 : FVec F S8x2048x8192 .f32) (main_arg2 : FVec F S8x4096x2048 .f32) : IVec S_ 1 :=
  let main_v0 : FVec F S8x1024x2048 .f32 := Host.absf main_arg0
  let main_cst : FVec F S_ .f32 := constant S_ .f32 0x7F800000#32
  let main_v1 : FVec F S8x1024x2048 .f32 := broadcastInDim S8x1024x2048 ![] bcast_S_S8x1024x2048 main_cst
  let main_v2 : IVec S8x1024x2048 1 := cmpf .olt main_v0 main_v1
  let main_c : IVec S_ 1 := constantI S_ 1 1#1
  let main_v3 : IVec S_ 1 := (fun x v => Host.reduce IntOp.andi x v reducesTo_S8x1024x2048_S_d0_1_2 h_S_) main_v2 main_c
  let main_v4 : FVec F S8x2048x8192 .f32 := Host.absf main_arg1
  let main_cst_0 : FVec F S_ .f32 := constant S_ .f32 0x7F800000#32
  let main_v5 : FVec F S8x2048x8192 .f32 := broadcastInDim S8x2048x8192 ![] bcast_S_S8x2048x8192 main_cst_0
  let main_v6 : IVec S8x2048x8192 1 := cmpf .olt main_v4 main_v5
  let main_c_1 : IVec S_ 1 := constantI S_ 1 1#1
  let main_v7 : IVec S_ 1 := (fun x v => Host.reduce IntOp.andi x v reducesTo_S8x2048x8192_S_d0_1_2 h_S_) main_v6 main_c_1
  let main_v8 : IVec S_ 1 := andi main_v3 main_v7
  let main_v9 : FVec F S8x4096x2048 .f32 := Host.absf main_arg2
  let main_cst_2 : FVec F S_ .f32 := constant S_ .f32 0x7F800000#32
  let main_v10 : FVec F S8x4096x2048 .f32 := broadcastInDim S8x4096x2048 ![] bcast_S_S8x4096x2048 main_cst_2
  let main_v11 : IVec S8x4096x2048 1 := cmpf .olt main_v9 main_v10
  let main_c_3 : IVec S_ 1 := constantI S_ 1 1#1
  let main_v12 : IVec S_ 1 := (fun x v => Host.reduce IntOp.andi x v reducesTo_S8x4096x2048_S_d0_1_2 h_S_) main_v11 main_c_3
  let main_v13 : IVec S_ 1 := andi main_v8 main_v12
  main_v13
-- ==== Kernel.lean ====
abbrev S8x1024x2048 : Shape := ⟨3, ![8, 1024, 2048]⟩
abbrev S8x2048x8192 : Shape := ⟨3, ![8, 2048, 8192]⟩
abbrev S8x4096x2048 : Shape := ⟨3, ![8, 4096, 2048]⟩
abbrev S1x1024x2048 : Shape := ⟨3, ![1, 1024, 2048]⟩
abbrev S1x2048x128 : Shape := ⟨3, ![1, 2048, 128]⟩
abbrev S1x128x2048 : Shape := ⟨3, ![1, 128, 2048]⟩
abbrev S1024x2048 : Shape := ⟨2, ![1024, 2048]⟩
abbrev S2048x128 : Shape := ⟨2, ![2048, 128]⟩
abbrev S1024x128 : Shape := ⟨2, ![1024, 128]⟩
abbrev S128x2048 : Shape := ⟨2, ![128, 2048]⟩

abbrev nBuf : Space → Nat
  | .hbm => 4
  | .vmem => 9
  | .smem => 0
  | _ => 0

abbrev bufTy : (tb : Table) → Fin (tcTables nBuf tb) → BufTy
  | .hbm, ⟨0, _⟩ => ⟨S8x1024x2048, .f32⟩
  | .hbm, ⟨1, _⟩ => ⟨S8x2048x8192, .f32⟩
  | .hbm, ⟨2, _⟩ => ⟨S8x4096x2048, .f32⟩
  | .hbm, ⟨3, _⟩ => ⟨S8x1024x2048, .f32⟩
  | .local _ .vmem, ⟨0, _⟩ => ⟨S1x1024x2048, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x128x2048, .f32⟩
  | .local _ .vmem, ⟨6, _⟩ => ⟨S1x128x2048, .f32⟩
  | .local _ .vmem, ⟨7, _⟩ => ⟨S1x1024x2048, .f32⟩
  | .local _ .vmem, ⟨8, _⟩ => ⟨S1024x2048, .f32⟩
  | _, _ => ⟨S8x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 32], ![false, false]⟩

def k0_cond3 (i : grid0.Coords) : BitVec 1 :=
  let arg1 : BitVec 32 := BitVec.ofNat 32 (i 1).val
  let c31_i32_15 : BitVec 32 := 31#32
  let v25 : BitVec 1 := Scalar.cmpi .eq arg1 c31_i32_15
  let v26 : BitVec 32 := Scalar.extui v25
  let c0_i32_16 : BitVec 32 := 0#32
  let v27 : BitVec 1 := Scalar.cmpi .ne v26 c0_i32_16
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S1024x2048_S1x1024x2048 : S1024x2048.ShapeCasts S1x1024x2048
  dot_S1024x2048_S2048x128_S1024x128_1_0_0_1_n_n_wf : DotDims.WF S1024x2048 S2048x128 S1024x128 [1] [0] [0] [1] [] []
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x1024x2048.size a
  hwx0_0 : ∀ i : grid0.Coords, EltTy.bits .f32 = 32 ∨ (Rect.block (s := S8x1024x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S8x2048x8192.size a
  hwx0_1 : ∀ i : grid0.Coords, EltTy.bits .f32 = 32 ∨ (Rect.block (s := S8x2048x8192) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S8x2048x8192.size a
  hwx0_2 : ∀ i : grid0.Coords, EltTy.bits .f32 = 32 ∨ (Rect.block (s := S8x2048x8192) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x2048.size a ≤ S8x4096x2048.size a
  hwx0_3 : ∀ i : grid0.Coords, EltTy.bits .f32 = 32 ∨ (Rect.block (s := S8x4096x2048) S1x128x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024x2048.size a ≤ S8x1024x2048.size a
  hwx0_4 : ∀ i : grid0.Coords, EltTy.bits .f32 = 32 ∨ (Rect.block (s := S8x1024x2048) S1x1024x2048.size (cc0_transform_4 i) (hinb0_4 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_arg0) S1x1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8x1024x2048 : Shape := ⟨3, ![8, 1024, 2048]⟩
abbrev S8x2048x8192 : Shape := ⟨3, ![8, 2048, 8192]⟩
abbrev S8x4096x2048 : Shape := ⟨3, ![8, 4096, 2048]⟩
abbrev S8x1024x8192 : Shape := ⟨3, ![8, 1024, 8192]⟩
abbrev S8x1024x4096 : Shape := ⟨3, ![8, 1024, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x1024x2048, .f32⟩
  | .hbm, ⟨1, _⟩ => ⟨S8x2048x8192, .f32⟩
  | .hbm, ⟨2, _⟩ => ⟨S8x4096x2048, .f32⟩
  | .hbm, ⟨3, _⟩ => ⟨S8x1024x8192, .f32⟩
  | .hbm, ⟨4, _⟩ => ⟨S8x1024x4096, .f32⟩
  | .hbm, ⟨5, _⟩ => ⟨S8x1024x4096, .f32⟩
  | .hbm, ⟨6, _⟩ => ⟨S8x1024x4096, .f32⟩
  | .hbm, ⟨7, _⟩ => ⟨S8x1024x4096, .f32⟩
  | .hbm, ⟨8, _⟩ => ⟨S_, .f32⟩
  | .hbm, ⟨9, _⟩ => ⟨S8x1024x4096, .f32⟩
  | .hbm, ⟨10, _⟩ => ⟨S8x1024x4096, .f32⟩
  | .hbm, ⟨11, _⟩ => ⟨S_, .f32⟩
  | .hbm, ⟨12, _⟩ => ⟨S8x1024x4096, .f32⟩
  | .hbm, ⟨13, _⟩ => ⟨S8x1024x4096, .f32⟩
  | .hbm, ⟨14, _⟩ => ⟨S8x1024x4096, .f32⟩
  | .hbm, ⟨15, _⟩ => ⟨S8x1024x4096, .f32⟩
  | .hbm, ⟨16, _⟩ => ⟨S8x1024x2048, .f32⟩
  | _, _ => ⟨S8x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x1024x8192_S8x1024x4096_0_0_0 : S8x1024x8192.Slices ![0, 0, 0] S8x1024x4096
  slices_S8x1024x8192_S8x1024x4096_0_0_4096 : S8x1024x8192.Slices ![0, 0, 4096] S8x1024x4096
  bcast_S_S8x1024x4096 : S_.BroadcastsInDim S8x1024x4096 (![] : Fin 0 → Fin S8x1024x4096.rank)
  dot_S8x1024x2048_S8x2048x8192_S8x1024x8192_2_1_1_2_0_0_wf : DotDims.WF S8x1024x2048 S8x2048x8192 S8x1024x8192 [2] [1] [1] [2] [0] [0]
  dot_S8x1024x4096_S8x4096x2048_S8x1024x2048_2_1_1_2_0_0_wf : DotDims.WF S8x1024x4096 S8x4096x2048 S8x1024x2048 [2] [1] [1] [2] [0] [0]

variable [Facts₀]

def dot_S8x1024x2048_S8x2048x8192_S8x1024x8192_2_1_1_2_0_0 : DotDims S8x1024x2048 S8x2048x8192 S8x1024x8192 where
  lhsContracting := [2]
  rhsContracting := [1]
  lhsNonContracting := [1]
  rhsNonContracting := [2]
  lhsBatch := [0]
  rhsBatch := [0]
  wf := dot_S8x1024x2048_S8x2048x8192_S8x1024x8192_2_1_1_2_0_0_wf
def dot_S8x1024x4096_S8x4096x2048_S8x1024x2048_2_1_1_2_0_0 : DotDims S8x1024x4096 S8x4096x2048 S8x1024x2048 where
  lhsContracting := [2]
  rhsContracting := [1]
  lhsNonContracting := [1]
  rhsNonContracting := [2]
  lhsBatch := [0]
  rhsBatch := [0]
  wf := dot_S8x1024x4096_S8x4096x2048_S8x1024x2048_2_1_1_2_0_0_wf

class Facts : Prop extends Facts₀ where

variable [Facts]
-- ==== Proof.K.Setup.lean ====
/-
  The expert feed-forward kernel's launch, read once: the arrays as the region finds them, each window's block
  at a grid point, the three conditions of the body (first step of an expert, not the last step, the last step)
  in closed form over the 8 × 32 grid, where the output window is idle, and the memrefs the body is called with.
  Grid point t = 32·e + n is expert e at reduction step n.
-/
import proofs.«177625_j39264591020716_2_alg».proof.Proof.Gen.Kernel.Launch
import proofs.«177625_j39264591020716_2_alg».proof.Proof.Gen.Kernel.Skeleton
import proofs.«177625_j39264591020716_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffers when the region is entered: the launch contents (no host operation precedes the region). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the index map has
    not moved where it is not fetched), for any proof data over the entry arrays whose body leaves the inputs in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid -/

/-- `n == 0`: the first reduction step of an expert (the accumulator is zeroed). -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 32 = 0 :=
  (by decide +kernel : ∀ t : Fin grid0.N, condFirst (grid0.coords t) ↔ t.val % 32 = 0)

/-- `n < 31`: not the last step (the contribution is added into the accumulator). -/
abbrev condMid (i : grid0.Coords) : Prop := (Scalar.cmpi .ne (Scalar.extui (Scalar.cmpi .slt (BitVec.ofNat 32 (i 1).val) 31#32)) 0#32) = 1#1
theorem hcondMid : ∀ t : Fin cfg0.N, condMid (grid0.coords t) ↔ ¬ t.val % 32 = 31 :=
  (by decide +kernel : ∀ t : Fin grid0.N, condMid (grid0.coords t) ↔ ¬ t.val % 32 = 31)

/-- `n == 31`: the last step (accumulator plus contribution goes to the output block). -/
abbrev condLast (i : grid0.Coords) : Prop := k0_cond3 i = 1#1
theorem hcondLast : ∀ t : Fin cfg0.N, condLast (grid0.coords t) ↔ t.val % 32 = 31 :=
  (by decide +kernel : ∀ t : Fin grid0.N, condLast (grid0.coords t) ↔ t.val % 32 = 31)

/-! ## Where the output window is idle -/

theorem liveAt_in0 : ∀ t : Fin cfg0.N, cfg0.idle 0 (grid0.coords t) = false := by decide +kernel
theorem liveAt_in1 : ∀ t : Fin cfg0.N, cfg0.idle 1 (grid0.coords t) = false := by decide +kernel
theorem liveAt_in2 : ∀ t : Fin cfg0.N, cfg0.idle 2 (grid0.coords t) = false := by decide +kernel
theorem liveAt_in3 : ∀ t : Fin cfg0.N, cfg0.idle 3 (grid0.coords t) = false := by decide +kernel
/-- Off the last step the body stores nothing into the output block, -/
theorem idleAt_out : ∀ t : Fin cfg0.N, ¬ condLast (grid0.coords t) → cfg0.idle 4 (grid0.coords t) = true := by decide +kernel
/-- and the pipeline does not write it back there; -/
theorem noFlush_out : ∀ t : Fin cfg0.N, ¬ condLast (grid0.coords t) → (cfg0.win 4).flush t = false := by decide +kernel
/-- at the last step it is stored whole. -/
theorem liveAt_out : ∀ t : Fin cfg0.N, condLast (grid0.coords t) → cfg0.idle 4 (grid0.coords t) = false := by decide +kernel

/-! ## The memrefs the body is called with -/

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x2048 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S1024x2048 .f32 := Memref.whole cc0_scratch0
abbrev VS : View sig .tc .vmem S1024x2048 .f32 := scM.view
/-- One staging buffer of the output window, through which its contents are stated. -/
abbrev VO : View sig .tc .vmem S1x1024x2048 .f32 := (Memref.whole cc0_stg4_0 : Memref sig .tc .vmem S1x1024x2048 .f32).view

/-- The scoped rest is the accumulator owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.Kernel.Hand

end
-- ==== Proof.K.RunA.lean ====
/-
  The kernel body run whole at the first reduction step of an expert: its triple on whole staging memrefs, the pieces it
  leaves written found by the run.
-/
import proofs.«177625_j39264591020716_2_alg».proof.Proof.K.Setup

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE FIRST STEP of an expert (n = 0). On whole memrefs — the four input blocks at their contents, the output block
    untouched, the accumulator at anything — the body runs to the continuation with the inputs as they were, the
    output block as it was, and the accumulator with the pieces `LS` written (the zero fill, then zero plus the step's
    contribution): the pieces are found by running the body. -/
noncomputable def kernelRunA (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) :
    { LS : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__expert_ffn_kernel i arg2 harg2 arg3 harg3 arg4 harg4 arg5 harg5 arg6 harg6 arg7 harg7) K } := by
  refine ⟨?_, fun xi4 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.RunB.lean ====
/-
  The kernel body run whole at a middle reduction step: its triple on whole staging memrefs, the pieces it
  leaves written found by the run.
-/
import proofs.«177625_j39264591020716_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A MIDDLE STEP (0 < n < 31). The accumulator comes in at what the step before left (`xs`) and goes out with one
    piece written: `xs` plus the step's contribution. The output block is untouched. -/
noncomputable def kernelRunB (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) :
    { LS : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__expert_ffn_kernel i arg2 harg2 arg3 harg3 arg4 harg4 arg5 harg5 arg6 harg6 arg7 harg7) K } := by
  refine ⟨?_, fun xi4 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.K.RunC.lean ====
/-
  The kernel body run whole at the last reduction step: its triple on whole staging memrefs, the pieces it
  leaves written found by the run.
-/
import proofs.«177625_j39264591020716_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE LAST STEP (n = 31). The accumulator comes in at what the step before left (`xs`) and is only read; the output
    block, at anything, goes out with one piece written: `xs` plus the step's contribution. -/
noncomputable def kernelRunC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) :
    { L4 : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0__expert_ffn_kernel i arg2 harg2 arg3 harg3 arg4 harg4 arg5 harg5 arg6 harg6 arg7 harg7) K } := by
  refine ⟨?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.Kernel.Hand

end
-- ==== Proof.LibSharedTrack.lean ====
/-
  The frame run of a one-region TensorCore program whose INPUT windows may read one array several times and
  whose body CARRIES a scratch buffer from one grid point to the next.

  As in the plain run for shared arrays, the launch deals the buffers behind the windows' arrays once each and the
  certificate says how they become the proof data's `arrays` (`hsplit`).  Here the proof data's invariant may name
  what the scratch buffers hold point by point: the scoped rest, at anything, yields the invariant before the first
  point (`hin`), and the invariant after the last point yields the scoped rest back (`hout`: the named contents are
  forgotten).  Every unscoped buffer that is no window's array bypasses the region and is read back unchanged.
  The conclusion is `Pipeline.FramePost`.
-/
import Idealize.ShloMosaic.Lib.Pipeline.Frame

noncomputable section

namespace Idealize.ShloMosaic.Pipeline.Shared

open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic Idealize.ShloMosaic.Pipeline Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN for windows that may share arrays, with a TRACKING invariant over the scoped rest. -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, scopedRest (Ix := Unit) (Name := ℕ) (U := UR sig nD τ) (Lvl := ℕ) (Val := Val) (cfgs p).spec c ⊢ (dats p c).Φ 0)
    (hout : ∀ c, (dats p c).Φ (Fin.last (cfgs p).N) ⊢ scopedRest (Ix := Unit) (Name := ℕ) (U := UR sig nD τ) (Lvl := ℕ) (Val := Val) (cfgs p).spec c) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := BI.Entails.refl _)
    (V := V) (hmain := hmain) (hsplit := hsplit)
    (X := fun _ => iprop(emp)) (Y := fun _ => iprop(emp))
    (Z := fun c => unscopedRest (Ix := Unit) (Name := ℕ) (U := UR sig nD τ) (Lvl := ℕ) (cfgs p).spec c (V c))
    (hX := fun c => by
      iintro H
      isplitr; · iempintro
      iexact H)
    (hin := fun c => (show (iprop(iprop(emp) ∗ scopedRest (Ix := Unit) (Name := ℕ) (U := UR sig nD τ) (Lvl := ℕ) (Val := Val) (cfgs p).spec c) : sProp 𝕄) ⊢ scopedRest (Ix := Unit) (Name := ℕ) (U := UR sig nD τ) (Lvl := ℕ) (Val := Val) (cfgs p).spec c from by
      iintro ⟨-, H⟩; iexact H).trans (hin c))
    (hout := fun c => (hout c).trans (show (scopedRest (Ix := Unit) (Name := ℕ) (U := UR sig nD τ) (Lvl := ℕ) (Val := Val) (cfgs p).spec c : sProp 𝕄) ⊢ iprop(iprop(emp) ∗ scopedRest (Ix := Unit) (Name := ℕ) (U := UR sig nD τ) (Lvl := ℕ) (Val := Val) (cfgs p).spec c) from by
      iintro H
      isplitr; · iempintro
      iexact H))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end Idealize.ShloMosaic.Pipeline.Shared

end
-- ==== Proof.K.Frame.lean ====
/-
  The frame of the expert feed-forward kernel, and what its output array holds afterwards.

  What the accumulator holds after each grid point is stated by recursion on the point (`accAt`): zero plus the
  step's contribution at an expert's first step, the previous contents plus the contribution at a middle step,
  unchanged at the last step, where accumulator plus contribution goes to the output block instead (`outAt`).
  The region invariant names the accumulator's contents point by point; the gate and up windows both read the
  fused weight array, so its buffer is dealt to them in two half shares at the region's entry.
-/
import proofs.«177625_j39264591020716_2_alg».proof.Proof.K.RunC
import proofs.«177625_j39264591020716_2_alg».proof.Proof.LibSharedTrack

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first step's pieces cover the accumulator. -/
theorem scoverA (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) (y : S1024x2048.Idx) :
    ∃ pc ∈ (kernelRunA c i arg2 harg2 arg3 harg3 arg4 harg4 arg5 harg5 arg6 harg6 arg7 harg7 hc1 hc2 hc3 x0 x1 x2 x3).1, y ∈ pc.1.set :=
  View.cover_of_tiledL (kernelRunA c i arg2 harg2 arg3 harg3 arg4 harg4 arg5 harg5 arg6 harg6 arg7 harg7 hc1 hc2 hc3 x0 x1 x2 x3).1 S1024x2048.size (by sl_kernel_rfl) y

/-- What the first step leaves in the accumulator. -/
def soutA (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) : Vec F S1024x2048 .f32 :=
  VS.read (Elt F) (VS.writes (Elt F) VS.junk (kernelRunA c i arg2 harg2 arg3 harg3 arg4 harg4 arg5 harg5 arg6 harg6 arg7 harg7 hc1 hc2 hc3 x0 x1 x2 x3).1)

/-- A middle step's piece covers the accumulator. -/
theorem scoverB (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) (y : S1024x2048.Idx) :
    ∃ pc ∈ (kernelRunB c i arg2 harg2 arg3 harg3 arg4 harg4 arg5 harg5 arg6 harg6 arg7 harg7 hc1 hc2 hc3 x0 x1 x2 x3 xs).1, y ∈ pc.1.set :=
  View.cover_of_tiledL (kernelRunB c i arg2 harg2 arg3 harg3 arg4 harg4 arg5 harg5 arg6 harg6 arg7 harg7 hc1 hc2 hc3 x0 x1 x2 x3 xs).1 S1024x2048.size (by sl_kernel_rfl) y

/-- What a middle step leaves in the accumulator. -/
def soutB (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) : Vec F S1024x2048 .f32 :=
  VS.read (Elt F) (VS.writes (Elt F) VS.junk (kernelRunB c i arg2 harg2 arg3 harg3 arg4 harg4 arg5 harg5 arg6 harg6 arg7 harg7 hc1 hc2 hc3 x0 x1 x2 x3 xs).1)

/-- The last step's piece covers the output block. -/
theorem coverC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) (y : S1x1024x2048.Idx) :
    ∃ pc ∈ (kernelRunC c i arg2 harg2 arg3 harg3 arg4 harg4 arg5 harg5 arg6 harg6 arg7 harg7 hc1 hc2 hc3 x0 x1 x2 x3 xs).1, y ∈ pc.1.set :=
  View.cover_of_tiledL (kernelRunC c i arg2 harg2 arg3 harg3 arg4 harg4 arg5 harg5 arg6 harg6 arg7 harg7 hc1 hc2 hc3 x0 x1 x2 x3 xs).1 S1x1024x2048.size (by sl_kernel_rfl) y

/-- What the last step leaves in the output block. -/
def outC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) : Vec F S1x1024x2048 .f32 :=
  VO.read (Elt F) (VO.writes (Elt F) VO.junk (kernelRunC c i arg2 harg2 arg3 harg3 arg4 harg4 arg5 harg5 arg6 harg6 arg7 harg7 hc1 hc2 hc3 x0 x1 x2 x3 xs).1)

/-! ## Point by point -/

theorem N256 : cfg0.N = 256 := N_0

/-- THE ACCUMULATION: what the accumulator holds after the body at position `n`. -/
def accAt (c : Dev nD) : (n : ℕ) → n < cfg0.N → Vec F S1024x2048 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) ((hcondMid ⟨0, hn⟩).mpr (by show ¬ 0 % 32 = 31; decide)) (fun h => absurd ((hcondLast ⟨0, hn⟩).mp h) (by show ¬ 0 % 32 = 31; decide)) (iblk m c 0 ⟨0, hn⟩) (iblk m c 1 ⟨0, hn⟩) (iblk m c 2 ⟨0, hn⟩) (iblk m c 3 ⟨0, hn⟩)
  | n + 1, hn =>
    if h0 : (n + 1) % 32 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) ((hcondMid ⟨n + 1, hn⟩).mpr (by dsimp only; omega)) (fun h => absurd ((hcondLast ⟨n + 1, hn⟩).mp h) (by dsimp only; omega)) (iblk m c 0 ⟨n + 1, hn⟩) (iblk m c 1 ⟨n + 1, hn⟩) (iblk m c 2 ⟨n + 1, hn⟩) (iblk m c 3 ⟨n + 1, hn⟩)
    else
      if h31 : (n + 1) % 32 = 31 then
        accAt c n (Nat.lt_of_succ_lt hn)
      else
        soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondMid ⟨n + 1, hn⟩).mpr h31) (fun h => h31 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At an expert's first step. -/
theorem accAt_A (c : Dev nD) (t : Fin cfg0.N) (h0 : t.val % 32 = 0) :
    accAt m c t.val t.isLt = soutA c (grid0.coords t) (ms0 t) (hs0 t) (ms1 t) (hs1 t) (ms2 t) (hs2 t) (ms3 t) (hs3 t) (ms4 t) (hs4 t) scM (Memref.isWhole_whole _) ((hcondFirst t).mpr h0) ((hcondMid t).mpr (by omega)) (fun h => absurd ((hcondLast t).mp h) (by omega)) (iblk m c 0 t) (iblk m c 1 t) (iblk m c 2 t) (iblk m c 3 t) := by
  obtain ⟨n, hn⟩ := t
  cases n with
  | zero => exact rfl
  | succ n => exact (dif_pos h0).trans rfl

/-- At a middle step: over what the step before left. -/
theorem accAt_B (c : Dev nD) (t : Fin cfg0.N) (h0 : ¬t.val % 32 = 0) (h31 : ¬t.val % 32 = 31) :
    accAt m c t.val t.isLt = soutB c (grid0.coords t) (ms0 t) (hs0 t) (ms1 t) (hs1 t) (ms2 t) (hs2 t) (ms3 t) (hs3 t) (ms4 t) (hs4 t) scM (Memref.isWhole_whole _) (fun h => h0 ((hcondFirst t).mp h)) ((hcondMid t).mpr h31) (fun h => h31 ((hcondLast t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h31).trans rfl)

/-- At the last step the accumulator is only read. -/
theorem accAt_C (c : Dev nD) (t : Fin cfg0.N) (h31 : t.val % 32 = 31) :
    accAt m c t.val t.isLt = accAt m c (t.val - 1) (Nat.lt_of_le_of_lt (Nat.sub_le _ _) t.isLt) := by
  obtain ⟨n, hn⟩ := t
  cases n with
  | zero => exact (by exfalso; (try dsimp only at h31); omega)
  | succ n => exact (dif_neg (by dsimp only at h31 ⊢; omega)).trans ((dif_pos h31).trans rfl)

/-- What the output block holds after the body at position `n`: at a last step the accumulator plus the contribution;
    elsewhere nothing is stored (a placeholder nothing consults: the window is idle and not written back there). -/
def outAt (c : Dev nD) (n : ℕ) (hn : n < cfg0.N) : Vec F S1x1024x2048 .f32 :=
  if h31 : n % 32 = 31 then
    outC c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scM (Memref.isWhole_whole _) (fun h => absurd ((hcondFirst ⟨n, hn⟩).mp h) (by dsimp only; omega)) (fun h => ((hcondMid ⟨n, hn⟩).mp h) h31) ((hcondLast ⟨n, hn⟩).mpr h31) (iblk m c 0 ⟨n, hn⟩) (iblk m c 1 ⟨n, hn⟩) (iblk m c 2 ⟨n, hn⟩) (iblk m c 3 ⟨n, hn⟩) (accAt m c (n - 1) (Nat.lt_of_le_of_lt (Nat.sub_le _ _) hn))
  else
    VO.read (Elt F) (VO.writes (Elt F) VO.junk [])

theorem outAt_C (c : Dev nD) (t : Fin cfg0.N) (h31 : t.val % 32 = 31) :
    outAt m c t.val t.isLt = outC c (grid0.coords t) (ms0 t) (hs0 t) (ms1 t) (hs1 t) (ms2 t) (hs2 t) (ms3 t) (hs3 t) (ms4 t) (hs4 t) scM (Memref.isWhole_whole _) (fun h => absurd ((hcondFirst t).mp h) (by omega)) (fun h => ((hcondMid t).mp h) h31) ((hcondLast t).mpr h31) (iblk m c 0 t) (iblk m c 1 t) (iblk m c 2 t) (iblk m c 3 t) (accAt m c (t.val - 1) (Nat.lt_of_le_of_lt (Nat.sub_le _ _) t.isLt)) := by
  unfold outAt; exact dif_pos h31

/-- The region invariant before position `n`: before the first point the accumulator at anything; afterwards at what
    the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The pipeline's proof data on core `c`: the arrays as the region finds them; after the body each input's buffer at
    its block and the output's at `outAt`; the invariant `PhiS`; the fused weight array read by the gate and up windows
    at half a share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt_in0 t], after0]
theorem leaves_in1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt_in1 t], after1]
theorem leaves_in2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt_in2 t], after2]
theorem leaves_in3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt_in3 t], after3]

set_option maxHeartbeats 4800000 in
/-- The body at any point: the inputs' memrefs hold their blocks; the point's position within its expert says which
    case it is in; the invariant hands the body the accumulator at what the point before left (at anything at the very
    first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt N256
  by_cases h0 : t.val % 32 = 0
  · have h31 : ¬ t.val % 32 = 31 := by omega
    have hcL : ¬ condLast (grid0.coords t) := fun h => h31 ((hcondLast t).mp h)
    rw [Dat.leavesExact_idle (dats m 0 c) 4 t (idleAt_out t hcL) (noFlush_out t hcL)]
    rw [accAt_A m c t h0]
    unfold soutA; (try dsimp only)
    by_cases hz : t.val = 0
    · rw [PhiS_castSucc m c t, PhiS_zero m c _ _ hz, scopedRest_acc]
      iintro ⟨HS, Ho, ⟨%d0, H0⟩, ⟨%d1, H1⟩, ⟨%d2, H2⟩, ⟨%d3, H3⟩, ⟨%d4, H4⟩⟩
      iapply ((kernelRunA c (grid0.coords t) _ _ _ _ _ _ _ _ _ _ _ _ ((hcondFirst t).mpr h0) ((hcondMid t).mpr h31) hcL (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRunA c (grid0.coords t) _ _ _ _ _ _ _ _ _ _ _ _ ((hcondFirst t).mpr h0) ((hcondMid t).mpr h31) hcL (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h31 : t.val % 32 = 31
    · have hcL : condLast (grid0.coords t) := (hcondLast t).mpr h31
      rw [show (dats m 0 c).leavesExact 4 t = owns (c : Thread nD τ) (ms4 t) fullShare ((dats m 0 c).after 4 t) from by
        unfold Dat.leavesExact; rw [liveAt_out t hcL], after4]
      rw [outAt_C m c t h31, accAt_C m c t h31]
      unfold outC; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondFirst t).mp h)) (fun h => ((hcondMid t).mp h) h31) hcL (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS]; · iexact HS
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _ _)
    · have hcL : ¬ condLast (grid0.coords t) := fun h => h31 ((hcondLast t).mp h)
      rw [Dat.leavesExact_idle (dats m 0 c) 4 t (idleAt_out t hcL) (noFlush_out t hcL)]
      rw [accAt_B m c t h0 h31]
      unfold soutB; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondFirst t).mp h)) ((hcondMid t).mpr h31) hcL (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scoverB c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N256; omega), scopedRest_acc]
  iintro HS
  iexists _; iexact HS

/-- The buffers behind the windows' arrays, each whole at its entry contents, make the proof data's arrays: the fused
    weight array's buffer is split into its two half shares, one for the gate window and one for the up window. -/
theorem hsplit (c : Dev nD) :
    (Pipeline.arrBufs spec0 c (V m c) : sProp 𝕄) ⊢ (dats m 0 c).arrays ((dats m 0 c).arrAt · 0) := by
  have hL : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_v0) ↦{fullShare} V m c main_v0)) := by
    unfold Pipeline.arrBufs
    exact bigSep_eq_bigSepL_of_eq [main_arg0, main_arg1, main_arg2, main_v0] (by decide) (by decide) _
  rw [hL]
  unfold Dat.arrays
  rw [bigSep_W0]
  iintro ⟨H0, H1, H2, H3⟩
  ihave H1' := (pointsTo_share (PosShare.mem_left_op_right fullShare)).1 $$ H1
  icases H1' with ⟨H1l, H1r⟩
  isplitl [H0]
  · rw [(arr_whole0 0).set_eq_univ]; iexact H0
  isplitl [H1l]
  · rw [(arr_whole0 1).set_eq_univ]; iexact H1l
  isplitl [H1r]
  · rw [(arr_whole0 2).set_eq_univ]; iexact H1r
  isplitl [H2]
  · rw [(arr_whole0 3).set_eq_univ]; iexact H2
  rw [(arr_whole0 4).set_eq_univ]; iexact H3

/-! ## The run and the frame -/

set_option backward.isDefEq.respectTransparency.types false in
/-- Every weakly fair execution of @main terminates, and every final state has every array of the pipeline at what the
    library computes from the proof data. -/
theorem run_main : θ_run defs (onTc (τ := τ) (main (F := F))) (s₀ m ρ) (Pipeline.FramePost cfgs (dats m) 0 (V m)) :=
  Pipeline.Shared.θ_run_frame_shared_track cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- THE FRAME: the three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3))⟩) (run_main m ρ)

end Cert.Kernel.Hand

end
-- ==== Proof.KI.Setup.lean ====
/-
  The expert feed-forward kernel's launch, read once: the arrays as the region finds them, each window's block
  at a grid point, the three conditions of the body (first step of an expert, not the last step, the last step)
  in closed form over the 8 × 32 grid, where the output window is idle, and the memrefs the body is called with.
  Grid point t = 32·e + n is expert e at reduction step n.
-/
import proofs.«177625_j39264591020716_2_alg».proof.Proof.Gen.KernelIdeal.Launch
import proofs.«177625_j39264591020716_2_alg».proof.Proof.Gen.KernelIdeal.Skeleton
import proofs.«177625_j39264591020716_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, and the windows' blocks -/

/-- Core `c`'s buffers when the region is entered: the launch contents (no host operation precedes the region). -/
abbrev V (c : Dev nD) (b : Ref sig .tc) : Buf (Elt F) ((c : Thread nD τ).loc b) := m ((c : Thread nD τ).loc b)

/-- @main is the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the index map has
    not moved where it is not fetched), for any proof data over the entry arrays whose body leaves the inputs in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's three conditions, over the grid -/

/-- `n == 0`: the first reduction step of an expert (the accumulator is zeroed). -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 32 = 0 :=
  (by decide +kernel : ∀ t : Fin grid0.N, condFirst (grid0.coords t) ↔ t.val % 32 = 0)

/-- `n < 31`: not the last step (the contribution is added into the accumulator). -/
abbrev condMid (i : grid0.Coords) : Prop := (Scalar.cmpi .ne (Scalar.extui (Scalar.cmpi .slt (BitVec.ofNat 32 (i 1).val) 31#32)) 0#32) = 1#1
theorem hcondMid : ∀ t : Fin cfg0.N, condMid (grid0.coords t) ↔ ¬ t.val % 32 = 31 :=
  (by decide +kernel : ∀ t : Fin grid0.N, condMid (grid0.coords t) ↔ ¬ t.val % 32 = 31)

/-- `n == 31`: the last step (accumulator plus contribution goes to the output block). -/
abbrev condLast (i : grid0.Coords) : Prop := k0_cond3 i = 1#1
theorem hcondLast : ∀ t : Fin cfg0.N, condLast (grid0.coords t) ↔ t.val % 32 = 31 :=
  (by decide +kernel : ∀ t : Fin grid0.N, condLast (grid0.coords t) ↔ t.val % 32 = 31)

/-! ## Where the output window is idle -/

theorem liveAt_in0 : ∀ t : Fin cfg0.N, cfg0.idle 0 (grid0.coords t) = false := by decide +kernel
theorem liveAt_in1 : ∀ t : Fin cfg0.N, cfg0.idle 1 (grid0.coords t) = false := by decide +kernel
theorem liveAt_in2 : ∀ t : Fin cfg0.N, cfg0.idle 2 (grid0.coords t) = false := by decide +kernel
theorem liveAt_in3 : ∀ t : Fin cfg0.N, cfg0.idle 3 (grid0.coords t) = false := by decide +kernel
/-- Off the last step the body stores nothing into the output block, -/
theorem idleAt_out : ∀ t : Fin cfg0.N, ¬ condLast (grid0.coords t) → cfg0.idle 4 (grid0.coords t) = true := by decide +kernel
/-- and the pipeline does not write it back there; -/
theorem noFlush_out : ∀ t : Fin cfg0.N, ¬ condLast (grid0.coords t) → (cfg0.win 4).flush t = false := by decide +kernel
/-- at the last step it is stored whole. -/
theorem liveAt_out : ∀ t : Fin cfg0.N, condLast (grid0.coords t) → cfg0.idle 4 (grid0.coords t) = false := by decide +kernel

/-! ## The memrefs the body is called with -/

abbrev ms0 (t : Fin cfg0.N) : Memref sig .tc .vmem S1x1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x128x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1024x2048 .f32 := win0_4.stage (cfg0.slots t 4)
abbrev hs4 (t : Fin cfg0.N) : (ms4 t).IsWhole := hstage0_4 ((cfg0.slots t 4).cast nbuf0_4)
/-- The accumulator: a whole scoped buffer of the kernel's own. -/
abbrev scM : Memref sig .tc .vmem S1024x2048 .f32 := Memref.whole cc0_scratch0
abbrev VS : View sig .tc .vmem S1024x2048 .f32 := scM.view
/-- One staging buffer of the output window, through which its contents are stated. -/
abbrev VO : View sig .tc .vmem S1x1024x2048 .f32 := (Memref.whole cc0_stg4_0 : Memref sig .tc .vmem S1x1024x2048 .f32).view

/-- The scoped rest is the accumulator owned at some contents. -/
theorem scopedRest_acc (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; try rfl

end Cert.KernelIdeal.Hand

end
-- ==== Proof.KI.RunA.lean ====
/-
  The kernel body run whole at the first reduction step of an expert: its triple on whole staging memrefs, the pieces it
  leaves written found by the run.
-/
import proofs.«177625_j39264591020716_2_alg».proof.Proof.KI.Setup

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE FIRST STEP of an expert (n = 0). On whole memrefs — the four input blocks at their contents, the output block
    untouched, the accumulator at anything — the body runs to the continuation with the inputs as they were, the
    output block as it was, and the accumulator with the pieces `LS` written (the zero fill, then zero plus the step's
    contribution): the pieces are found by running the body. -/
noncomputable def kernelRunA (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) :
    { LS : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__expert_ffn_kernel i arg2 harg2 arg3 harg3 arg4 harg4 arg5 harg5 arg6 harg6 arg7 harg7) K } := by
  refine ⟨?_, fun xi4 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.RunB.lean ====
/-
  The kernel body run whole at a middle reduction step: its triple on whole staging memrefs, the pieces it
  leaves written found by the run.
-/
import proofs.«177625_j39264591020716_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A MIDDLE STEP (0 < n < 31). The accumulator comes in at what the step before left (`xs`) and goes out with one
    piece written: `xs` plus the step's contribution. The output block is untouched. -/
noncomputable def kernelRunB (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) :
    { LS : List (View.Piece (Elt F) S1024x2048 .f32) //
      ∀ (xi4 : Vec F S1x1024x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS)) -∗ K ⟨⟩))
          ⊢ wp frame (wpE (defs₀ (F := F)) Variants.none c none) E (cc0__expert_ffn_kernel i arg2 harg2 arg3 harg3 arg4 harg4 arg5 harg5 arg6 harg6 arg7 harg7) K } := by
  refine ⟨?_, fun xi4 E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KI.RunC.lean ====
/-
  The kernel body run whole at the last reduction step: its triple on whole staging memrefs, the pieces it
  leaves written found by the run.
-/
import proofs.«177625_j39264591020716_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- THE LAST STEP (n = 31). The accumulator comes in at what the step before left (`xs`) and is only read; the output
    block, at anything, goes out with one piece written: `xs` plus the step's contribution. -/
noncomputable def kernelRunC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) :
    { L4 : List (View.Piece (Elt F) S1x1024x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xs) -∗ K ⟨⟩))
          ⊢ wp frame (wpE (defs₀ (F := F)) Variants.none c none) E (cc0__expert_ffn_kernel i arg2 harg2 arg3 harg3 arg4 harg4 arg5 harg5 arg6 harg6 arg7 harg7) K } := by
  refine ⟨?_, fun E K => ?run⟩
  case run =>
    simp only [cc0__expert_ffn_kernel_eq_skeleton]; unfold cc0__expert_ffn_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; isplitr; · ipureintro; exact harg7.read_unread _
    iexact HS

end Cert.KernelIdeal.Hand

end
-- ==== Proof.KI.Frame.lean ====
/-
  The frame of the expert feed-forward kernel, and what its output array holds afterwards.

  What the accumulator holds after each grid point is stated by recursion on the point (`accAt`): zero plus the
  step's contribution at an expert's first step, the previous contents plus the contribution at a middle step,
  unchanged at the last step, where accumulator plus contribution goes to the output block instead (`outAt`).
  The region invariant names the accumulator's contents point by point; the gate and up windows both read the
  fused weight array, so its buffer is dealt to them in two half shares at the region's entry.
-/
import proofs.«177625_j39264591020716_2_alg».proof.Proof.KI.RunC
import proofs.«177625_j39264591020716_2_alg».proof.Proof.LibSharedTrack

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first step's pieces cover the accumulator. -/
theorem scoverA (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) (y : S1024x2048.Idx) :
    ∃ pc ∈ (kernelRunA c i arg2 harg2 arg3 harg3 arg4 harg4 arg5 harg5 arg6 harg6 arg7 harg7 hc1 hc2 hc3 x0 x1 x2 x3).1, y ∈ pc.1.set :=
  View.cover_of_tiledL (kernelRunA c i arg2 harg2 arg3 harg3 arg4 harg4 arg5 harg5 arg6 harg6 arg7 harg7 hc1 hc2 hc3 x0 x1 x2 x3).1 S1024x2048.size (by sl_kernel_rfl) y

/-- What the first step leaves in the accumulator. -/
def soutA (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) : Vec F S1024x2048 .f32 :=
  VS.read (Elt F) (VS.writes (Elt F) VS.junk (kernelRunA c i arg2 harg2 arg3 harg3 arg4 harg4 arg5 harg5 arg6 harg6 arg7 harg7 hc1 hc2 hc3 x0 x1 x2 x3).1)

/-- A middle step's piece covers the accumulator. -/
theorem scoverB (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) (y : S1024x2048.Idx) :
    ∃ pc ∈ (kernelRunB c i arg2 harg2 arg3 harg3 arg4 harg4 arg5 harg5 arg6 harg6 arg7 harg7 hc1 hc2 hc3 x0 x1 x2 x3 xs).1, y ∈ pc.1.set :=
  View.cover_of_tiledL (kernelRunB c i arg2 harg2 arg3 harg3 arg4 harg4 arg5 harg5 arg6 harg6 arg7 harg7 hc1 hc2 hc3 x0 x1 x2 x3 xs).1 S1024x2048.size (by sl_kernel_rfl) y

/-- What a middle step leaves in the accumulator. -/
def soutB (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) : Vec F S1024x2048 .f32 :=
  VS.read (Elt F) (VS.writes (Elt F) VS.junk (kernelRunB c i arg2 harg2 arg3 harg3 arg4 harg4 arg5 harg5 arg6 harg6 arg7 harg7 hc1 hc2 hc3 x0 x1 x2 x3 xs).1)

/-- The last step's piece covers the output block. -/
theorem coverC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) (y : S1x1024x2048.Idx) :
    ∃ pc ∈ (kernelRunC c i arg2 harg2 arg3 harg3 arg4 harg4 arg5 harg5 arg6 harg6 arg7 harg7 hc1 hc2 hc3 x0 x1 x2 x3 xs).1, y ∈ pc.1.set :=
  View.cover_of_tiledL (kernelRunC c i arg2 harg2 arg3 harg3 arg4 harg4 arg5 harg5 arg6 harg6 arg7 harg7 hc1 hc2 hc3 x0 x1 x2 x3 xs).1 S1x1024x2048.size (by sl_kernel_rfl) y

/-- What the last step leaves in the output block. -/
def outC (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) : Vec F S1x1024x2048 .f32 :=
  VO.read (Elt F) (VO.writes (Elt F) VO.junk (kernelRunC c i arg2 harg2 arg3 harg3 arg4 harg4 arg5 harg5 arg6 harg6 arg7 harg7 hc1 hc2 hc3 x0 x1 x2 x3 xs).1)

/-! ## Point by point -/

theorem N256 : cfg0.N = 256 := N_0

/-- THE ACCUMULATION: what the accumulator holds after the body at position `n`. -/
def accAt (c : Dev nD) : (n : ℕ) → n < cfg0.N → Vec F S1024x2048 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) ((hcondFirst ⟨0, hn⟩).mpr (Nat.zero_mod _)) ((hcondMid ⟨0, hn⟩).mpr (by show ¬ 0 % 32 = 31; decide)) (fun h => absurd ((hcondLast ⟨0, hn⟩).mp h) (by show ¬ 0 % 32 = 31; decide)) (iblk m c 0 ⟨0, hn⟩) (iblk m c 1 ⟨0, hn⟩) (iblk m c 2 ⟨0, hn⟩) (iblk m c 3 ⟨0, hn⟩)
  | n + 1, hn =>
    if h0 : (n + 1) % 32 = 0 then
      soutA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) ((hcondFirst ⟨n + 1, hn⟩).mpr h0) ((hcondMid ⟨n + 1, hn⟩).mpr (by dsimp only; omega)) (fun h => absurd ((hcondLast ⟨n + 1, hn⟩).mp h) (by dsimp only; omega)) (iblk m c 0 ⟨n + 1, hn⟩) (iblk m c 1 ⟨n + 1, hn⟩) (iblk m c 2 ⟨n + 1, hn⟩) (iblk m c 3 ⟨n + 1, hn⟩)
    else
      if h31 : (n + 1) % 32 = 31 then
        accAt c n (Nat.lt_of_succ_lt hn)
      else
        soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (fun h => h0 ((hcondFirst ⟨n + 1, hn⟩).mp h)) ((hcondMid ⟨n + 1, hn⟩).mpr h31) (fun h => h31 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

/-- At an expert's first step. -/
theorem accAt_A (c : Dev nD) (t : Fin cfg0.N) (h0 : t.val % 32 = 0) :
    accAt m c t.val t.isLt = soutA c (grid0.coords t) (ms0 t) (hs0 t) (ms1 t) (hs1 t) (ms2 t) (hs2 t) (ms3 t) (hs3 t) (ms4 t) (hs4 t) scM (Memref.isWhole_whole _) ((hcondFirst t).mpr h0) ((hcondMid t).mpr (by omega)) (fun h => absurd ((hcondLast t).mp h) (by omega)) (iblk m c 0 t) (iblk m c 1 t) (iblk m c 2 t) (iblk m c 3 t) := by
  obtain ⟨n, hn⟩ := t
  cases n with
  | zero => exact rfl
  | succ n => exact (dif_pos h0).trans rfl

/-- At a middle step: over what the step before left. -/
theorem accAt_B (c : Dev nD) (t : Fin cfg0.N) (h0 : ¬t.val % 32 = 0) (h31 : ¬t.val % 32 = 31) :
    accAt m c t.val t.isLt = soutB c (grid0.coords t) (ms0 t) (hs0 t) (ms1 t) (hs1 t) (ms2 t) (hs2 t) (ms3 t) (hs3 t) (ms4 t) (hs4 t) scM (Memref.isWhole_whole _) (fun h => h0 ((hcondFirst t).mp h)) ((hcondMid t).mpr h31) (fun h => h31 ((hcondLast t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h31).trans rfl)

/-- At the last step the accumulator is only read. -/
theorem accAt_C (c : Dev nD) (t : Fin cfg0.N) (h31 : t.val % 32 = 31) :
    accAt m c t.val t.isLt = accAt m c (t.val - 1) (Nat.lt_of_le_of_lt (Nat.sub_le _ _) t.isLt) := by
  obtain ⟨n, hn⟩ := t
  cases n with
  | zero => exact (by exfalso; (try dsimp only at h31); omega)
  | succ n => exact (dif_neg (by dsimp only at h31 ⊢; omega)).trans ((dif_pos h31).trans rfl)

/-- What the output block holds after the body at position `n`: at a last step the accumulator plus the contribution;
    elsewhere nothing is stored (a placeholder nothing consults: the window is idle and not written back there). -/
def outAt (c : Dev nD) (n : ℕ) (hn : n < cfg0.N) : Vec F S1x1024x2048 .f32 :=
  if h31 : n % 32 = 31 then
    outC c (grid0.coords ⟨n, hn⟩) (ms0 ⟨n, hn⟩) (hs0 ⟨n, hn⟩) (ms1 ⟨n, hn⟩) (hs1 ⟨n, hn⟩) (ms2 ⟨n, hn⟩) (hs2 ⟨n, hn⟩) (ms3 ⟨n, hn⟩) (hs3 ⟨n, hn⟩) (ms4 ⟨n, hn⟩) (hs4 ⟨n, hn⟩) scM (Memref.isWhole_whole _) (fun h => absurd ((hcondFirst ⟨n, hn⟩).mp h) (by dsimp only; omega)) (fun h => ((hcondMid ⟨n, hn⟩).mp h) h31) ((hcondLast ⟨n, hn⟩).mpr h31) (iblk m c 0 ⟨n, hn⟩) (iblk m c 1 ⟨n, hn⟩) (iblk m c 2 ⟨n, hn⟩) (iblk m c 3 ⟨n, hn⟩) (accAt m c (n - 1) (Nat.lt_of_le_of_lt (Nat.sub_le _ _) hn))
  else
    VO.read (Elt F) (VO.writes (Elt F) VO.junk [])

theorem outAt_C (c : Dev nD) (t : Fin cfg0.N) (h31 : t.val % 32 = 31) :
    outAt m c t.val t.isLt = outC c (grid0.coords t) (ms0 t) (hs0 t) (ms1 t) (hs1 t) (ms2 t) (hs2 t) (ms3 t) (hs3 t) (ms4 t) (hs4 t) scM (Memref.isWhole_whole _) (fun h => absurd ((hcondFirst t).mp h) (by omega)) (fun h => ((hcondMid t).mp h) h31) ((hcondLast t).mpr h31) (iblk m c 0 t) (iblk m c 1 t) (iblk m c 2 t) (iblk m c 3 t) (accAt m c (t.val - 1) (Nat.lt_of_le_of_lt (Nat.sub_le _ _) t.isLt)) := by
  unfold outAt; exact dif_pos h31

/-- The region invariant before position `n`: before the first point the accumulator at anything; afterwards at what
    the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns (c : Thread nD τ) scM fullShare (accAt m c n hn)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = owns (c : Thread nD τ) scM fullShare (accAt m c n hn) := rfl

theorem PhiS_pos (c : Dev nD) (n : ℕ) (h : n ≤ cfg0.N) (hz : n ≠ 0) :
    PhiS m c n h = owns (c : Thread nD τ) scM fullShare (accAt m c (n - 1) (by omega)) := by
  cases n with
  | zero => exact absurd rfl hz
  | succ n => rfl

/-! ## The proof data -/

/-- The pipeline's proof data on core `c`: the arrays as the region finds them; after the body each input's buffer at
    its block and the output's at `outAt`; the invariant `PhiS`; the fused weight array read by the gate and up windows
    at half a share each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [liveAt_in0 t], after0]
theorem leaves_in1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [liveAt_in1 t], after1]
theorem leaves_in2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [liveAt_in2 t], after2]
theorem leaves_in3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [liveAt_in3 t], after3]

set_option maxHeartbeats 4800000 in
/-- The body at any point: the inputs' memrefs hold their blocks; the point's position within its expert says which
    case it is in; the invariant hands the body the accumulator at what the point before left (at anything at the very
    first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves_in0, leaves_in1, leaves_in2, leaves_in3]
  have hN : t.val < 256 := lt_of_lt_of_eq t.isLt N256
  by_cases h0 : t.val % 32 = 0
  · have h31 : ¬ t.val % 32 = 31 := by omega
    have hcL : ¬ condLast (grid0.coords t) := fun h => h31 ((hcondLast t).mp h)
    rw [Dat.leavesExact_idle (dats m 0 c) 4 t (idleAt_out t hcL) (noFlush_out t hcL)]
    rw [accAt_A m c t h0]
    unfold soutA; (try dsimp only)
    by_cases hz : t.val = 0
    · rw [PhiS_castSucc m c t, PhiS_zero m c _ _ hz, scopedRest_acc]
      iintro ⟨HS, Ho, ⟨%d0, H0⟩, ⟨%d1, H1⟩, ⟨%d2, H2⟩, ⟨%d3, H3⟩, ⟨%d4, H4⟩⟩
      iapply ((kernelRunA c (grid0.coords t) _ _ _ _ _ _ _ _ _ _ _ _ ((hcondFirst t).mpr h0) ((hcondMid t).mpr h31) hcL (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRunA c (grid0.coords t) _ _ _ _ _ _ _ _ _ _ _ _ ((hcondFirst t).mpr h0) ((hcondMid t).mpr h31) hcL (iblk m c 0 t) (iblk m c 1 t) (iblk m c 2 t) (iblk m c 3 t)).2 _ Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, ⟨%es, HS⟩⟩
      isplitl [HS]
      · unfold owns; iexists _; isplitr
        swap; · iexact HS
        ipureintro; exact View.read_writes_of_cover _ _ _ _ _ (scoverA c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4
  · have hz : t.val ≠ 0 := fun h => h0 (by rw [h])
    by_cases h31 : t.val % 32 = 31
    · have hcL : condLast (grid0.coords t) := (hcondLast t).mpr h31
      rw [show (dats m 0 c).leavesExact 4 t = owns (c : Thread nD τ) (ms4 t) fullShare ((dats m 0 c).after 4 t) from by
        unfold Dat.leavesExact; rw [liveAt_out t hcL], after4]
      rw [outAt_C m c t h31, accAt_C m c t h31]
      unfold outC; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondFirst t).mp h)) (fun h => ((hcondMid t).mp h) h31) hcL (iblk m c 0 t) (iblk m c 1 t) (iblk m c 2 t) (iblk m c 3 t) _).2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, HS⟩
      isplitl [HS]; · iexact HS
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _ _)
    · have hcL : ¬ condLast (grid0.coords t) := fun h => h31 ((hcondLast t).mp h)
      rw [Dat.leavesExact_idle (dats m 0 c) 4 t (idleAt_out t hcL) (noFlush_out t hcL)]
      rw [accAt_B m c t h0 h31]
      unfold soutB; (try dsimp only)
      rw [PhiS_castSucc m c t, PhiS_pos m c _ _ hz]
      iintro ⟨HS, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondFirst t).mp h)) ((hcondMid t).mpr h31) hcL (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS]
      · unfold owns; iexists _; isplitr
        swap; · iexact HS
        ipureintro; exact View.read_writes_of_cover _ _ _ _ _ (scoverB c _ _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## Into and out of the region -/

theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have := N256; omega), scopedRest_acc]
  iintro HS
  iexists _; iexact HS

/-- The buffers behind the windows' arrays, each whole at its entry contents, make the proof data's arrays: the fused
    weight array's buffer is split into its two half shares, one for the gate window and one for the up window. -/
theorem hsplit (c : Dev nD) :
    (Pipeline.arrBufs spec0 c (V m c) : sProp 𝕄) ⊢ (dats m 0 c).arrays ((dats m 0 c).arrAt · 0) := by
  have hL : (Pipeline.arrBufs spec0 c (V m c) : sProp 𝕄)
      = iprop((((c.tc : Thread nD τ).loc main_arg0) ↦{fullShare} V m c main_arg0) ∗ (((c.tc : Thread nD τ).loc main_arg1) ↦{fullShare} V m c main_arg1)
          ∗ (((c.tc : Thread nD τ).loc main_arg2) ↦{fullShare} V m c main_arg2) ∗ (((c.tc : Thread nD τ).loc main_v0) ↦{fullShare} V m c main_v0)) := by
    unfold Pipeline.arrBufs
    exact bigSep_eq_bigSepL_of_eq [main_arg0, main_arg1, main_arg2, main_v0] (by decide) (by decide) _
  rw [hL]
  unfold Dat.arrays
  rw [bigSep_W0]
  iintro ⟨H0, H1, H2, H3⟩
  ihave H1' := (pointsTo_share (PosShare.mem_left_op_right fullShare)).1 $$ H1
  icases H1' with ⟨H1l, H1r⟩
  isplitl [H0]
  · rw [(arr_whole0 0).set_eq_univ]; iexact H0
  isplitl [H1l]
  · rw [(arr_whole0 1).set_eq_univ]; iexact H1l
  isplitl [H1r]
  · rw [(arr_whole0 2).set_eq_univ]; iexact H1r
  isplitl [H2]
  · rw [(arr_whole0 3).set_eq_univ]; iexact H2
  rw [(arr_whole0 4).set_eq_univ]; iexact H3

/-! ## The run and the frame -/

set_option backward.isDefEq.respectTransparency.types false in
/-- Every weakly fair execution of @main terminates, and every final state has every array of the pipeline at what the
    library computes from the proof data. -/
theorem run_main : θ_run defs (onTc (τ := τ) (main (F := F))) (s₀ m ρ) (Pipeline.FramePost cfgs (dats m) 0 (V m)) :=
  Pipeline.Shared.θ_run_frame_shared_track cfgs (dats m) (0 : Fin 1) cellOf_inj winFacts₀0 block_pos0 arr_whole0 stage_whole0
    defs₀ Variants.none m ρ main
    (hbody := fun c => (body_obligation m c).loose) (howed := fun _ _ => rfl) (V := V m) (hmain := hmain m Variants.none)
    (hsplit := hsplit m) (hin := hin m) (hout := hout m)

/-- THE FRAME: the three argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3))⟩) (run_main m ρ)

end Cert.KernelIdeal.Hand

end
-- ==== Proof.KI.Pieces.lean ====
/-
  What each case of the body leaves, as values: the pieces the runs found, read back, are the body's arithmetic
  applied to the blocks it loaded. A middle step leaves accumulator + contribution; the first step leaves
  (zero fill) + contribution, the zero fill being the accumulator it reads back; the last step leaves
  accumulator + contribution in the output block, re-laid with a leading unit axis.
-/
import proofs.«177625_j39264591020716_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A middle step: the one covering store's payload over the whole buffers it loaded. -/
theorem soutB_eq (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : condMid i) (hc3 : ¬condLast i)
    (x0 : Vec F S1x1024x2048 .f32) (x1 : Vec F S1x2048x128 .f32) (x2 : Vec F S1x2048x128 .f32) (x3 : Vec F S1x128x2048 .f32) (xs : Vec F S1024x2048 .f32) :
    soutB c i arg2 harg2 arg3 harg3 arg4 harg4 arg5 harg5 arg6 harg6 arg7 harg7 hc1 hc2 hc3 x0 x1 x2 x3 xs = k0_pay3 x0 x1 x2 x3 xs := by
  unfold soutB
  rw [View.read_writes_eq_canon _ _ _ (scoverB c i arg2 harg2 arg3 harg3 arg4 harg4 arg5 harg5 arg6 harg6 arg7 harg7 hc1 hc2 hc3 x0 x1 x2 x3 xs)]
  unfold kernelRunB
  dsimp only
  rw [View.canon_unit_zero hz2]
  simp only [View.readAt_eq_ld, harg2.read_unread, harg3.read_unread, harg4.read_unread, harg5.read_unread, harg7.read_unread,
    View.ld_unit_zero (S := S1x1024x2048) hz3, View.ld_unit_zero (S := S1x2048x128) hz3, View.ld_unit_zero (S := S1x128x2048) hz3,
    View.ld_unit_zero (S := S1024x2048) hz2]

/-- The first step: the accumulator read back is the zero fill just stored. -/
theorem soutA_eq (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : condFirst i) (hc2 : condMid i) (hc3 : ¬condLast i)
    (x0 : Vec F S1x1024x2048 .f32) (x1 : Vec F S1x2048x128 .f32) (x2 : Vec F S1x2048x128 .f32) (x3 : Vec F S1x128x2048 .f32) :
    soutA c i arg2 harg2 arg3 harg3 arg4 harg4 arg5 harg5 arg6 harg6 arg7 harg7 hc1 hc2 hc3 x0 x1 x2 x3 = k0_pay3 x0 x1 x2 x3 (k0_pay1 (F := F)) := by
  unfold soutA
  rw [View.read_writes_eq_canon _ _ _ (scoverA c i arg2 harg2 arg3 harg3 arg4 harg4 arg5 harg5 arg6 harg6 arg7 harg7 hc1 hc2 hc3 x0 x1 x2 x3)]
  unfold kernelRunA
  dsimp only
  sl_unfold_words
  rw [View.canon_cons_unit_zero (S := S1024x2048) hz2, View.readCov_unit_zero (S := S1024x2048) _ hz2]
  simp only [View.readAt_eq_ld, harg2.read_unread, harg3.read_unread, harg4.read_unread, harg5.read_unread, harg7.read_unread,
    View.ld_unit_zero (S := S1x1024x2048) hz3, View.ld_unit_zero (S := S1x2048x128) hz3, View.ld_unit_zero (S := S1x128x2048) hz3,
    View.ld_unit_zero (S := S1024x2048) hz2]

/-- The last step: the output block's one covering store. -/
theorem outC_eq (c : Dev nD) (i : grid0.Coords) (arg2 : Memref sig .tc .vmem S1x1024x2048 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x128x2048 .f32) (harg5 : arg5.IsWhole) (arg6 : Memref sig .tc .vmem S1x1024x2048 .f32) (harg6 : arg6.IsWhole) (arg7 : Memref sig .tc .vmem S1024x2048 .f32) (harg7 : arg7.IsWhole) (hc1 : ¬condFirst i) (hc2 : ¬condMid i) (hc3 : condLast i)
    (x0 : Vec F S1x1024x2048 .f32) (x1 : Vec F S1x2048x128 .f32) (x2 : Vec F S1x2048x128 .f32) (x3 : Vec F S1x128x2048 .f32) (xs : Vec F S1024x2048 .f32) :
    outC c i arg2 harg2 arg3 harg3 arg4 harg4 arg5 harg5 arg6 harg6 arg7 harg7 hc1 hc2 hc3 x0 x1 x2 x3 xs = k0_pay4 x0 x1 x2 x3 xs := by
  unfold outC
  rw [View.read_writes_eq_canon _ _ _ (coverC c i arg2 harg2 arg3 harg3 arg4 harg4 arg5 harg5 arg6 harg6 arg7 harg7 hc1 hc2 hc3 x0 x1 x2 x3 xs)]
  unfold kernelRunC
  dsimp only
  rw [View.canon_unit_zero hz3]
  simp only [View.readAt_eq_ld, harg2.read_unread, harg3.read_unread, harg4.read_unread, harg5.read_unread, harg7.read_unread,
    View.ld_unit_zero (S := S1x1024x2048) hz3, View.ld_unit_zero (S := S1x2048x128) hz3, View.ld_unit_zero (S := S1x128x2048) hz3,
    View.ld_unit_zero (S := S1024x2048) hz2]

end Cert.KernelIdeal.Hand

end
-- ==== Proof.LibPlainMatmul.lean ====
/-
  A plain matrix product read at an index, over the extended reals.

  For dimension numbers that contract the left operand's axis 1 with the right operand's axis 0, keep the left
  operand's axis 0 and the right operand's axis 1, and have no batch axes, entry `(p, q)` of the product accumulated
  into the zero matrix is `∑ₖ lhs (p, k) * rhs (k, q)`: the contraction index, a one-axis multi-index, is its one
  coordinate, and the operand indices at `(p, q)` and `k` are `(p, k)` and `(k, q)`.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0])
  (hln : d.lhsNonContracting = [0]) (hrn : d.rhsNonContracting = [1])
  (hlb : d.lhsBatch = []) (hrb : d.rhsBatch = [])

include hln hlb in
/-- The left operand's row coordinate is the result's row coordinate. -/
theorem lhsIdx_row (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

include hrn hrb hln hlb in
/-- The right operand's column coordinate is the result's column coordinate. -/
theorem rhsIdx_col (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

include hlc in
theorem contr_rank : d.contr.rank = 1 := by rw [d.rank_contr, hlc]; rfl

include hlc in
theorem contr_size (h0 : 0 < d.contr.rank) : d.contr.size ⟨0, h0⟩ = K := by
  have h1 : 0 < d.lhsContracting.length := by rw [hlc]; exact Nat.one_pos
  have e := d.size_contr 0 h1
  refine e.trans ?_
  have : d.lhsContracting[0] = (1 : Fin (⟨2, ![M, K]⟩ : Shape).rank) := by simp [hlc]
  rw [this]
  rfl

include hlc hrc hln hrn hlb hrb in
/-- ENTRY `(p, q)` OF A PLAIN PRODUCT INTO THE ZERO MATRIX: `∑ₖ lhs (p, k) * rhs (k, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  rw [Ideal.matmul_constant_zero_apply]
  have hr : d.contr.rank = 1 := contr_rank d hlc
  have hs : d.contr.size ⟨0, by omega⟩ = K := contr_size d hlc _
  rw [← Equiv.sum_comp (contrEquiv1 d K hr hs).symm]
  refine Finset.sum_congr rfl fun k _ => ?_
  have hl : d.lhsIdx (ix2 p q) ((contrEquiv1 d K hr hs).symm k) = ix2 p k := by
    funext a
    apply Fin.ext
    match a with
    | ⟨0, _⟩ => exact lhsIdx_row d hln hlb (ix2 p q) _
    | ⟨1, _⟩ =>
      exact (d.lhsIdx_val_of_single (cl := 1) hlc (ix2 p q) _).trans (contrEquiv1_symm_val d K hr hs k)
  have hr' : d.rhsIdx (ix2 p q) ((contrEquiv1 d K hr hs).symm k) = ix2 k q := by
    funext a
    apply Fin.ext
    match a with
    | ⟨0, _⟩ =>
      exact (d.rhsIdx_val_of_single (cr := 0) hrc (ix2 p q) _).trans (contrEquiv1_symm_val d K hr hs k)
    | ⟨1, _⟩ => exact rhsIdx_col d hln hrn hlb hrb (ix2 p q) _
  rw [hl, hr']

end Idealize.ShloMosaic.PlainMatmul
-- ==== Proof.Contrib.lean ====
/-
  One grid step's contribution, read at an entry, over the extended reals.

  At row p and output column q the step's contribution is
      ∑ i < 128, (g i · logistic (g i) · u i) · down (i, q),
  where g i and u i are row p of the hidden block against column i of the gate block and of the up block
  (sums over the 2048 hidden coordinates). The three matrix products accumulate into zero matrices, a change
  of float format is the identity, and the blocks' leading unit axis is dropped by a row-major re-lay.
-/
import proofs.«177625_j39264591020716_2_alg».proof.Proof.Gen.KernelIdeal.Skeleton
import proofs.«177625_j39264591020716_2_alg».proof.Proof.LibPlainMatmul
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.HandValue

open Cert.KernelIdeal Cert.KernelIdeal.Gen Idealize.ShloMosaic Idealize.ShloMosaic.ValueIdx

/-- Row `p` of the hidden block against column `i` of a gate or up block. -/
def blkProj (x0 : Vec Ideal S1x1024x2048 .f32) (x : Vec Ideal S1x2048x128 .f32) (p : Fin 1024) (i : Fin 128) : EReal :=
  ∑ k : Fin 2048, x0 (ix3 (0 : Fin 1) p k) * x (ix3 (0 : Fin 1) k i)

/-- The gated activation of the step at row `p`, position `i` of the tile. -/
def blkAct (x0 : Vec Ideal S1x1024x2048 .f32) (x1 x2 : Vec Ideal S1x2048x128 .f32) (p : Fin 1024) (i : Fin 128) : EReal :=
  blkProj x0 x1 p i * Ideal.logistic (blkProj x0 x1 p i) * blkProj x0 x2 p i

/-- A projection matmul of the body, at an entry. -/
theorem proj_apply (x0 : Vec Ideal S1x1024x2048 .f32) (x : Vec Ideal S1x2048x128 .f32) (p : Fin 1024) (i : Fin 128) :
    matmul dot_S1024x2048_S2048x128_S1024x128_1_0_0_1_n_n none
        (truncf .bf16 (shapeCast S1024x2048 x0 shapeCasts_S1x1024x2048_S1024x2048) bitsLt_bf16_f32)
        (truncf .bf16 (shapeCast S2048x128 x shapeCasts_S1x2048x128_S2048x128) bitsLt_bf16_f32)
        (constant (F := Ideal) S1024x128 .f32 0x00000000#32) (ix2 p i)
      = blkProj x0 x p i := by
  rw [show matmul dot_S1024x2048_S2048x128_S1024x128_1_0_0_1_n_n none
        (truncf .bf16 (shapeCast S1024x2048 x0 shapeCasts_S1x1024x2048_S1024x2048) bitsLt_bf16_f32)
        (truncf .bf16 (shapeCast S2048x128 x shapeCasts_S1x2048x128_S2048x128) bitsLt_bf16_f32)
        (constant (F := Ideal) S1024x128 .f32 0x00000000#32) (ix2 p i)
      = ∑ k : Fin 2048, (truncf .bf16 (shapeCast S1024x2048 x0 shapeCasts_S1x1024x2048_S1024x2048) bitsLt_bf16_f32 : FVec Ideal S1024x2048 .bf16) (ix2 p k)
          * (truncf .bf16 (shapeCast S2048x128 x shapeCasts_S1x2048x128_S2048x128) bitsLt_bf16_f32 : FVec Ideal S2048x128 .bf16) (ix2 k i) from
    PlainMatmul.matmul_zero_apply dot_S1024x2048_S2048x128_S1024x128_1_0_0_1_n_n rfl rfl rfl rfl rfl rfl none _ _ p i]
  unfold blkProj
  refine Finset.sum_congr rfl fun k _ => ?_
  rw [truncf_apply, truncf_apply, shapeCast_1ab_ab_apply, shapeCast_1ab_ab_apply]

/-- THE STEP'S CONTRIBUTION at row `p`, column `q`. -/
theorem pay2_apply (x0 : Vec Ideal S1x1024x2048 .f32) (x1 x2 : Vec Ideal S1x2048x128 .f32) (x3 : Vec Ideal S1x128x2048 .f32)
    (p : Fin 1024) (q : Fin 2048) :
    k0_pay2 (F := Ideal) x0 x1 x2 x3 (ix2 p q) = ∑ i : Fin 128, blkAct x0 x1 x2 p i * x3 (ix3 (0 : Fin 1) i q) := by
  unfold k0_pay2
  refine (PlainMatmul.matmul_zero_apply dot_S1024x128_S128x2048_S1024x2048_1_0_0_1_n_n rfl rfl rfl rfl rfl rfl none _ _ p q).trans ?_
  refine Finset.sum_congr rfl fun i _ => ?_
  rw [truncf_apply, truncf_apply, shapeCast_1ab_ab_apply, mulf_apply, mulf_apply]
  unfold blkAct
  rw [← proj_apply x0 x1 p i, ← proj_apply x0 x2 p i]
  rfl

end Cert.KernelIdeal.HandValue

end
-- ==== Proof.Spec.lean ====
/-
  The expert feed-forward block as one function of its three argument arrays, over the extended reals.

  For expert e, row p and output column q:
      out (e, p, q) = ∑ j < 4096, act (e, p, j) · w_down (e, j, q),
      act (e, p, j) = g · logistic g · u,   g = proj (e, p, j),   u = proj (e, p, 4096 + j),
      proj (e, p, f) = ∑ k < 2048, hidden (e, p, k) · w_gate_up (e, k, f).
  The intermediate axis of 4096 is 32 tiles of 128: a sum over it is the sum over the tiles of the sums within
  each tile (`sum_tiles`), and adding the tiles' sums one after another onto zero gives the same extended real,
  addition there being commutative and associative.
-/
import Idealize.ShloMosaic.Lib.ValueIdx
import Idealize.ShloMosaic.PureOps.Ideal.Laws

noncomputable section

open scoped BigOperators

namespace Cert.ExpertFfn

open Idealize.ShloMosaic Idealize.ShloMosaic.ValueIdx

/-- hidden states and the result: [experts, rows, hidden]. -/
abbrev SH : Shape := ⟨3, ![8, 1024, 2048]⟩
/-- the fused gate/up weights: [experts, hidden, 2 · intermediate]. -/
abbrev SW : Shape := ⟨3, ![8, 2048, 8192]⟩
/-- the down weights: [experts, intermediate, hidden]. -/
abbrev SD : Shape := ⟨3, ![8, 4096, 2048]⟩

/-- Column `j` of the gate half and of the up half of the fused projection. -/
def lo (j : Fin 4096) : Fin 8192 := ⟨j.val, by have := j.isLt; omega⟩
def hi (j : Fin 4096) : Fin 8192 := ⟨4096 + j.val, by have := j.isLt; omega⟩

/-- The fused projection: row `p` of expert `e`'s hidden states against column `f` of its gate/up weights. -/
def proj (h : SH.Idx → EReal) (w : SW.Idx → EReal) (e : Fin 8) (p : Fin 1024) (f : Fin 8192) : EReal :=
  ∑ k : Fin 2048, h (ix3 e p k) * w (ix3 e k f)

/-- The gated activation: silu of the gate projection times the up projection. -/
def act (h : SH.Idx → EReal) (w : SW.Idx → EReal) (e : Fin 8) (p : Fin 1024) (j : Fin 4096) : EReal :=
  proj h w e p (lo j) * Ideal.logistic (proj h w e p (lo j)) * proj h w e p (hi j)

/-- THE RESULT as one function of the argument arrays. -/
def G (h : SH.Idx → EReal) (w : SW.Idx → EReal) (d : SD.Idx → EReal) : SH.Idx → EReal :=
  fun i => ∑ j : Fin 4096, act h w (i 0) (i 1) j * d (ix3 (i 0) j (i 2))

/-- Position `i` of tile `n` on the intermediate axis. -/
def tile (n : Fin 32) (i : Fin 128) : Fin 4096 := ⟨128 * n.val + i.val, by have := n.isLt; have := i.isLt; omega⟩

/-- A sum over the intermediate axis is the sum over its 32 tiles of the sums within each tile. -/
theorem sum_tiles {M : Type*} [AddCommMonoid M] (f : Fin 4096 → M) :
    ∑ j : Fin 4096, f j = ∑ n : Fin 32, ∑ i : Fin 128, f (tile n i) := by
  let e : Fin 32 × Fin 128 ≃ Fin 4096 := finProdFinEquiv
  rw [← Equiv.sum_comp e f, Fintype.sum_prod_type]
  refine Finset.sum_congr rfl fun n _ => Finset.sum_congr rfl fun i _ => ?_
  congr 1
  apply Fin.ext
  show i.val + 128 * n.val = 128 * n.val + i.val
  omega

/-- The 32 tiles' sums added one after another onto zero, as the kernel's accumulator does: the sum over the tiles. -/
theorem sum_fin32_eq_range (c : ℕ → EReal) : ∑ n : Fin 32, c n.val = ∑ n ∈ Finset.range 32, c n :=
  Fin.sum_univ_eq_sum_range c 32

end Cert.ExpertFfn

end
-- ==== Proof.KI.Value.lean ====
/-
  What the expert feed-forward kernel's result array holds, over the extended reals.

  Grid point t = 32·e + n loads expert e's hidden rows, columns 128·n … 128·n + 127 of the gate half and of the up
  half of its fused weights, and rows 128·n … 128·n + 127 of its down weights. The accumulator after step n of
  expert e is the sum of the contributions of steps 0 … n (by induction on n), the last step writes accumulator
  plus contribution, so the block written back for expert e is the sum of the 32 tiles' contributions: the sum over
  the whole intermediate axis. Each expert's block is written back once, and the eight blocks cover the array.
-/
import proofs.«177625_j39264591020716_2_alg».proof.Proof.KI.Pieces
import proofs.«177625_j39264591020716_2_alg».proof.Proof.Contrib
import proofs.«177625_j39264591020716_2_alg».proof.Proof.Spec

set_option maxRecDepth 16384

noncomputable section

open scoped BigOperators

namespace Cert.KernelIdeal.HandValue

open Cert.KernelIdeal Cert.KernelIdeal.Gen Cert.KernelIdeal.Hand Cert.ExpertFfn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The index maps, decided over the grid -/

theorem idx_hidden : ∀ t : Fin cfg0.N, win0_0.index t (0 : Fin 3) = t.val / 32 ∧ win0_0.index t (1 : Fin 3) = 0 ∧ win0_0.index t (2 : Fin 3) = 0 :=
  (by decide +kernel : ∀ t : Fin grid0.N, _)
theorem idx_gate : ∀ t : Fin cfg0.N, win0_1.index t (0 : Fin 3) = t.val / 32 ∧ win0_1.index t (1 : Fin 3) = 0 ∧ win0_1.index t (2 : Fin 3) = t.val % 32 :=
  (by decide +kernel : ∀ t : Fin grid0.N, _)
theorem idx_up : ∀ t : Fin cfg0.N, win0_2.index t (0 : Fin 3) = t.val / 32 ∧ win0_2.index t (1 : Fin 3) = 0 ∧ win0_2.index t (2 : Fin 3) = t.val % 32 + 32 :=
  (by decide +kernel : ∀ t : Fin grid0.N, _)
theorem idx_down : ∀ t : Fin cfg0.N, win0_3.index t (0 : Fin 3) = t.val / 32 ∧ win0_3.index t (1 : Fin 3) = t.val % 32 ∧ win0_3.index t (2 : Fin 3) = 0 :=
  (by decide +kernel : ∀ t : Fin grid0.N, _)
theorem idx_out : ∀ t : Fin cfg0.N, win0_4.index t (0 : Fin 3) = t.val / 32 ∧ win0_4.index t (1 : Fin 3) = 0 ∧ win0_4.index t (2 : Fin 3) = 0 :=
  (by decide +kernel : ∀ t : Fin grid0.N, _)

/-! ## The blocks, read at coordinates -/

/-- The hidden block at point `t` is expert `t / 32`'s rows. -/
theorem hidden_apply (c : Dev nD) (t : Fin cfg0.N) (p : Fin 1024) (k : Fin 2048) (e : Fin 8) (he : e.val = t.val / 32) :
    (iblk m c 0 t : Vec Ideal S1x1024x2048 .f32) (ix3 (0 : Fin 1) p k) = m ((c : Thread nD τ).loc main_arg0) (ix3 e p k) := by
  obtain ⟨e0, e1, e2⟩ := idx_hidden t
  unfold iblk
  rw [View.read_apply]
  show V m c main_arg0 _ = m ((c : Thread nD τ).loc main_arg0) _
  unfold V
  congr 1
  funext a
  apply Fin.ext
  match a with
  | ⟨0, _⟩ => show win0_0.index t (0 : Fin 3) * 1 + 1 * ((0 : Fin 1) : ℕ) = e.val; rw [e0, he]; simp
  | ⟨1, _⟩ => show win0_0.index t (1 : Fin 3) * 1024 + 1 * p.val = p.val; rw [e1]; omega
  | ⟨2, _⟩ => show win0_0.index t (2 : Fin 3) * 2048 + 1 * k.val = k.val; rw [e2]; omega

/-- The gate block at point `t` is columns `128 · (t % 32) + i` of expert `t / 32`'s fused weights. -/
theorem gate_apply (c : Dev nD) (t : Fin cfg0.N) (k : Fin 2048) (i : Fin 128) (e : Fin 8) (f : Fin 8192) (he : e.val = t.val / 32)
    (hf : f.val = 128 * (t.val % 32) + i.val) :
    (iblk m c 1 t : Vec Ideal S1x2048x128 .f32) (ix3 (0 : Fin 1) k i) = m ((c : Thread nD τ).loc main_arg1) (ix3 e k f) := by
  obtain ⟨e0, e1, e2⟩ := idx_gate t
  unfold iblk
  rw [View.read_apply]
  show V m c main_arg1 _ = m ((c : Thread nD τ).loc main_arg1) _
  unfold V
  congr 1
  funext a
  apply Fin.ext
  match a with
  | ⟨0, _⟩ => show win0_1.index t (0 : Fin 3) * 1 + 1 * ((0 : Fin 1) : ℕ) = e.val; rw [e0, he]; simp
  | ⟨1, _⟩ => show win0_1.index t (1 : Fin 3) * 2048 + 1 * k.val = k.val; rw [e1]; omega
  | ⟨2, _⟩ => show win0_1.index t (2 : Fin 3) * 128 + 1 * i.val = f.val; rw [e2, hf]; omega

/-- The up block at point `t` is columns `4096 + 128 · (t % 32) + i` of the same fused weights. -/
theorem up_apply (c : Dev nD) (t : Fin cfg0.N) (k : Fin 2048) (i : Fin 128) (e : Fin 8) (f : Fin 8192) (he : e.val = t.val / 32)
    (hf : f.val = 4096 + (128 * (t.val % 32) + i.val)) :
    (iblk m c 2 t : Vec Ideal S1x2048x128 .f32) (ix3 (0 : Fin 1) k i) = m ((c : Thread nD τ).loc main_arg1) (ix3 e k f) := by
  obtain ⟨e0, e1, e2⟩ := idx_up t
  unfold iblk
  rw [View.read_apply]
  show V m c main_arg1 _ = m ((c : Thread nD τ).loc main_arg1) _
  unfold V
  congr 1
  funext a
  apply Fin.ext
  match a with
  | ⟨0, _⟩ => show win0_2.index t (0 : Fin 3) * 1 + 1 * ((0 : Fin 1) : ℕ) = e.val; rw [e0, he]; simp
  | ⟨1, _⟩ => show win0_2.index t (1 : Fin 3) * 2048 + 1 * k.val = k.val; rw [e1]; omega
  | ⟨2, _⟩ => show win0_2.index t (2 : Fin 3) * 128 + 1 * i.val = f.val; rw [e2, hf]; omega

/-- The down block at point `t` is rows `128 · (t % 32) + i` of expert `t / 32`'s down weights. -/
theorem down_apply (c : Dev nD) (t : Fin cfg0.N) (i : Fin 128) (q : Fin 2048) (e : Fin 8) (j : Fin 4096) (he : e.val = t.val / 32)
    (hj : j.val = 128 * (t.val % 32) + i.val) :
    (iblk m c 3 t : Vec Ideal S1x128x2048 .f32) (ix3 (0 : Fin 1) i q) = m ((c : Thread nD τ).loc main_arg2) (ix3 e j q) := by
  obtain ⟨e0, e1, e2⟩ := idx_down t
  unfold iblk
  rw [View.read_apply]
  show V m c main_arg2 _ = m ((c : Thread nD τ).loc main_arg2) _
  unfold V
  congr 1
  funext a
  apply Fin.ext
  match a with
  | ⟨0, _⟩ => show win0_3.index t (0 : Fin 3) * 1 + 1 * ((0 : Fin 1) : ℕ) = e.val; rw [e0, he]; simp
  | ⟨1, _⟩ => show win0_3.index t (1 : Fin 3) * 128 + 1 * i.val = j.val; rw [e1, hj]; omega
  | ⟨2, _⟩ => show win0_3.index t (2 : Fin 3) * 2048 + 1 * q.val = q.val; rw [e2]; omega

/-! ## One step's contribution, over the argument arrays -/

/-- The argument arrays as the region finds them, as functions of their indices. -/
abbrev Hd (c : Dev nD) : SH.Idx → EReal := m ((c : Thread nD τ).loc main_arg0)
abbrev Wg (c : Dev nD) : SW.Idx → EReal := m ((c : Thread nD τ).loc main_arg1)
abbrev Wd (c : Dev nD) : SD.Idx → EReal := m ((c : Thread nD τ).loc main_arg2)

/-- The contribution of grid point `t` at row `p`, column `q` (zero past the grid). -/
def ctr (c : Dev nD) (p : Fin 1024) (q : Fin 2048) (t : ℕ) : EReal :=
  if h : t < cfg0.N then k0_pay2 (F := Ideal) (iblk m c 0 ⟨t, h⟩) (iblk m c 1 ⟨t, h⟩) (iblk m c 2 ⟨t, h⟩) (iblk m c 3 ⟨t, h⟩) (ix2 p q) else 0

/-- Step `n` of expert `e` contributes tile `n`'s part of the sum over the intermediate axis. -/
theorem ctr_eq (c : Dev nD) (p : Fin 1024) (q : Fin 2048) (e : Fin 8) (n : Fin 32) :
    ctr m c p q (32 * e.val + n.val) = ∑ i : Fin 128, act (Hd m c) (Wg m c) e p (tile n i) * Wd m c (ix3 e (tile n i) q) := by
  have hN : cfg0.N = 256 := N256
  have hlt : 32 * e.val + n.val < cfg0.N := by have := e.isLt; have := n.isLt; omega
  unfold ctr
  rw [dif_pos hlt, pay2_apply]
  have hdiv : (32 * e.val + n.val) / 32 = e.val := by have := n.isLt; omega
  have hmod : (32 * e.val + n.val) % 32 = n.val := by have := n.isLt; omega
  refine Finset.sum_congr rfl fun i _ => ?_
  have hg : blkProj (iblk m c 0 ⟨_, hlt⟩) (iblk m c 1 ⟨_, hlt⟩) p i = proj (Hd m c) (Wg m c) e p (lo (tile n i)) := by
    unfold blkProj proj
    refine Finset.sum_congr rfl fun k _ => ?_
    rw [hidden_apply m c ⟨_, hlt⟩ p k e hdiv.symm, gate_apply m c ⟨_, hlt⟩ k i e (lo (tile n i)) hdiv.symm (by show 128 * n.val + i.val = 128 * ((32 * e.val + n.val) % 32) + i.val; rw [hmod])]
  have hu : blkProj (iblk m c 0 ⟨_, hlt⟩) (iblk m c 2 ⟨_, hlt⟩) p i = proj (Hd m c) (Wg m c) e p (hi (tile n i)) := by
    unfold blkProj proj
    refine Finset.sum_congr rfl fun k _ => ?_
    rw [hidden_apply m c ⟨_, hlt⟩ p k e hdiv.symm, up_apply m c ⟨_, hlt⟩ k i e (hi (tile n i)) hdiv.symm (by show 4096 + (128 * n.val + i.val) = 4096 + (128 * ((32 * e.val + n.val) % 32) + i.val); rw [hmod])]
  unfold blkAct act
  rw [hg, hu, down_apply m c ⟨_, hlt⟩ i q e (tile n i) hdiv.symm (by show 128 * n.val + i.val = 128 * ((32 * e.val + n.val) % 32) + i.val; rw [hmod])]

/-! ## The body's stores at an entry -/

theorem pay1_apply (p : Fin 1024) (q : Fin 2048) : k0_pay1 (F := Ideal) (ix2 p q) = 0 := by
  unfold k0_pay1
  rw [shapeCast_self]
  exact Ideal.ofBits_zero_f32

theorem pay3_apply (x0 : Vec Ideal S1x1024x2048 .f32) (x1 x2 : Vec Ideal S1x2048x128 .f32) (x3 : Vec Ideal S1x128x2048 .f32)
    (xs : Vec Ideal S1024x2048 .f32) (p : Fin 1024) (q : Fin 2048) :
    k0_pay3 (F := Ideal) x0 x1 x2 x3 xs (ix2 p q) = xs (ix2 p q) + k0_pay2 (F := Ideal) x0 x1 x2 x3 (ix2 p q) := by
  unfold k0_pay3
  rw [shapeCast_self]
  rfl

theorem pay4_apply (x0 : Vec Ideal S1x1024x2048 .f32) (x1 x2 : Vec Ideal S1x2048x128 .f32) (x3 : Vec Ideal S1x128x2048 .f32)
    (xs : Vec Ideal S1024x2048 .f32) (u : Fin 1) (p : Fin 1024) (q : Fin 2048) :
    k0_pay4 (F := Ideal) x0 x1 x2 x3 xs (ix3 u p q) = xs (ix2 p q) + k0_pay2 (F := Ideal) x0 x1 x2 x3 (ix2 p q) := by
  unfold k0_pay4
  rw [shapeCast_ab_1ab_apply]
  rfl

/-! ## The accumulator, step by step -/

theorem accAt_congr (c : Dev nD) {n n' : ℕ} (h : n < cfg0.N) (h' : n' < cfg0.N) (e : n = n') : accAt m c n h = accAt m c n' h' := by
  subst e; rfl

/-- After step `n < 31` of expert `e` the accumulator holds the contributions of steps 0 … n, summed. -/
theorem acc_sum (c : Dev nD) (p : Fin 1024) (q : Fin 2048) (e : ℕ) (he : e < 8) :
    ∀ (n : ℕ) (h : 32 * e + n < cfg0.N), n < 31 →
      accAt m c (32 * e + n) h (ix2 p q) = ∑ j ∈ Finset.range (n + 1), ctr m c p q (32 * e + j)
  | 0, h, _ => by
    have h0 : (⟨32 * e + 0, h⟩ : Fin cfg0.N).val % 32 = 0 := by dsimp only; omega
    rw [show accAt m c (32 * e + 0) h = accAt m c (⟨32 * e + 0, h⟩ : Fin cfg0.N).val (⟨32 * e + 0, h⟩ : Fin cfg0.N).isLt from rfl,
      accAt_A m c ⟨32 * e + 0, h⟩ h0, soutA_eq, pay3_apply, pay1_apply, zero_add, Finset.sum_range_one]
    unfold ctr
    rw [dif_pos h]
  | n + 1, h, hn => by
    have h0 : ¬ (⟨32 * e + (n + 1), h⟩ : Fin cfg0.N).val % 32 = 0 := by dsimp only; omega
    have h31 : ¬ (⟨32 * e + (n + 1), h⟩ : Fin cfg0.N).val % 32 = 31 := by dsimp only; omega
    have hprev : 32 * e + n < cfg0.N := by omega
    rw [show accAt m c (32 * e + (n + 1)) h = accAt m c (⟨32 * e + (n + 1), h⟩ : Fin cfg0.N).val (⟨32 * e + (n + 1), h⟩ : Fin cfg0.N).isLt from rfl,
      accAt_B m c ⟨32 * e + (n + 1), h⟩ h0 h31, soutB_eq, pay3_apply,
      accAt_congr m c _ hprev (show (⟨32 * e + (n + 1), h⟩ : Fin cfg0.N).val - 1 = 32 * e + n from by dsimp only; omega),
      acc_sum c p q e he n hprev (by omega), Finset.sum_range_succ _ (n + 1)]
    congr 1
    unfold ctr
    rw [dif_pos h]

/-- The block the last step of expert `e` leaves for the write-back: the 32 contributions, summed. -/
theorem out_sum (c : Dev nD) (u : Fin 1) (p : Fin 1024) (q : Fin 2048) (e : ℕ) (he : e < 8) (h : 32 * e + 31 < cfg0.N) :
    outAt m c (32 * e + 31) h (ix3 u p q) = ∑ j ∈ Finset.range 32, ctr m c p q (32 * e + j) := by
  have h31 : (⟨32 * e + 31, h⟩ : Fin cfg0.N).val % 32 = 31 := by dsimp only; omega
  have hprev : 32 * e + 30 < cfg0.N := by omega
  rw [show outAt m c (32 * e + 31) h = outAt m c (⟨32 * e + 31, h⟩ : Fin cfg0.N).val (⟨32 * e + 31, h⟩ : Fin cfg0.N).isLt from rfl,
    outAt_C m c ⟨32 * e + 31, h⟩ h31, outC_eq, pay4_apply,
    accAt_congr m c _ hprev (show (⟨32 * e + 31, h⟩ : Fin cfg0.N).val - 1 = 32 * e + 30 from by dsimp only; omega),
    acc_sum m c p q e he 30 hprev (by omega), Finset.sum_range_succ _ 31]
  congr 1
  unfold ctr
  rw [dif_pos h]

/-- …which is the whole sum over the intermediate axis: the specification at (e, p, q). -/
theorem out_eq_G (c : Dev nD) (u : Fin 1) (p : Fin 1024) (q : Fin 2048) (e : Fin 8) (h : 32 * e.val + 31 < cfg0.N) :
    outAt m c (32 * e.val + 31) h (ix3 u p q) = G (Hd m c) (Wg m c) (Wd m c) (ix3 e p q) := by
  rw [out_sum m c u p q e.val e.isLt h, ← Fin.sum_univ_eq_sum_range (fun j => ctr m c p q (32 * e.val + j)) 32]
  unfold G
  rw [sum_tiles]
  refine Finset.sum_congr rfl fun n _ => ?_
  exact ctr_eq m c p q e n

/-! ## From the blocks to the array -/

/-- The result array after the run. -/
abbrev result (c : Dev nD) : Buf (Elt Ideal) ((c : Thread nD τ).loc main_v0) := G (Hd m c) (Wg m c) (Wd m c)

/-- WHAT A WRITE-BACK WRITES: at the last step of expert `e`, block `e` of the specification. -/
theorem flushed_eq (c : Dev nD) (t : Fin cfg0.N) (hf : (cfg0.win 4).flush t = true) :
    (dats m 0 c).flushed 4 t = ((cfg0.win 4).blk t).view.read (Elt Ideal) (result m c) := by
  have hN : cfg0.N = 256 := N256
  have h31 : t.val % 32 = 31 := (flush0_4 t).mp hf
  obtain ⟨e0, e1, e2⟩ := idx_out t
  show (cfg0.win 4).cut (grid0.coords t) ((dats m 0 c).after 4 t) = _
  rw [after4]
  funext y
  obtain ⟨u, p, q, rfl⟩ : ∃ (u : Fin 1) (p : Fin 1024) (q : Fin 2048), y = ix3 u p q := ⟨y 0, y 1, y 2, eq_ix3 y⟩
  have hu : u.val = 0 := by omega
  have hlt : t.val / 32 < 8 := by have := t.isLt; omega
  have ht : t.val = 32 * (t.val / 32) + 31 := by omega
  show outAt m c t.val t.isLt (ix3 u p q) = result m c (((cfg0.win 4).blk t).view.emb (ix3 u p q))
  have hemb : ((cfg0.win 4).blk t).view.emb (ix3 u p q) = (ix3 (⟨t.val / 32, hlt⟩ : Fin 8) p q : SH.Idx) := by
    funext a
    apply Fin.ext
    match a with
    | ⟨0, _⟩ => show win0_4.index t (0 : Fin 3) * 1 + 1 * u.val = t.val / 32; rw [e0, hu]; omega
    | ⟨1, _⟩ => show win0_4.index t (1 : Fin 3) * 1024 + 1 * p.val = p.val; rw [e1]; omega
    | ⟨2, _⟩ => show win0_4.index t (2 : Fin 3) * 2048 + 1 * q.val = q.val; rw [e2]; omega
  rw [hemb]
  have hlt' : 32 * (t.val / 32) + 31 < cfg0.N := by omega
  rw [show outAt m c t.val t.isLt = outAt m c (32 * (t.val / 32) + 31) hlt' from by
    congr 1]
  exact out_eq_G m c u p q ⟨t.val / 32, hlt⟩ hlt'

theorem mem_blk_out (t : Fin cfg0.N) (i : S8x1024x2048.Idx) :
    i ∈ ((cfg0.win 4).blk t).view.set ↔ ∀ a : Fin 3, win0_4.index t a * S1x1024x2048.size a ≤ (i a).val ∧ (i a).val < win0_4.index t a * S1x1024x2048.size a + S1x1024x2048.size a := by
  show i ∈ ((View.whole main_v0).slice (win0_4.rect t)).set ↔ _
  rw [View.set_slice_whole, Rect.mem_set_unit]
  exact Iff.rfl

/-- THE ARRAY after the run is the specification of the argument arrays. -/
theorem final (c : Dev nD) : (dats m 0 c).arrAt 4 cfg0.N = result m c :=
  (dats m 0 c).arrAt_eq_of_cover 4 (result m c) (flushed_eq m c) fun i => by
    have hN : cfg0.N = 256 := N256
    have hi0 : (i 0).val < 8 := (i 0).isLt
    have hi1 : (i 1).val < 1024 := (i 1).isLt
    have hi2 : (i 2).val < 2048 := (i 2).isLt
    have hlt : 32 * (i 0).val + 31 < cfg0.N := by omega
    obtain ⟨e0, e1, e2⟩ := idx_out ⟨32 * (i 0).val + 31, hlt⟩
    refine ⟨⟨32 * (i 0).val + 31, hlt⟩, (flush0_4 _).mpr (by dsimp only; omega), ?_⟩
    rw [mem_blk_out]
    intro a
    match a with
    | ⟨0, _⟩ => show win0_4.index ⟨32 * (i 0).val + 31, hlt⟩ (0 : Fin 3) * 1 ≤ (i 0).val ∧ (i 0).val < win0_4.index ⟨32 * (i 0).val + 31, hlt⟩ (0 : Fin 3) * 1 + 1; rw [e0]; dsimp only; omega
    | ⟨1, _⟩ => show win0_4.index ⟨32 * (i 0).val + 31, hlt⟩ (1 : Fin 3) * 1024 ≤ (i 1).val ∧ (i 1).val < win0_4.index ⟨32 * (i 0).val + 31, hlt⟩ (1 : Fin 3) * 1024 + 1024; rw [e1]; omega
    | ⟨2, _⟩ => show win0_4.index ⟨32 * (i 0).val + 31, hlt⟩ (2 : Fin 3) * 2048 ≤ (i 2).val ∧ (i 2).val < win0_4.index ⟨32 * (i 0).val + 31, hlt⟩ (2 : Fin 3) * 2048 + 2048; rw [e2]; omega

/-- THE RUN, READ: the result array at the specification of the launch arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 4).trans (final m c),
     ((h c).1 0).trans (((dats m 0 c).arrAt_in 0 rfl _).trans (A_eq m c 0)),
     ((h c).1 1).trans (((dats m 0 c).arrAt_in 1 rfl _).trans (A_eq m c 1)),
     ((h c).1 3).trans (((dats m 0 c).arrAt_in 3 rfl _).trans (A_eq m c 3))⟩) (run_main m ρ)

end Cert.KernelIdeal.HandValue

end
-- ==== Proof.Ref.lean ====
/-
  The reference at an entry: jnp's two einsums around silu(gate) · up are the specification.

  The first einsum is the fused projection; the two slices take its gate half (columns j) and its up half (columns
  4096 + j); jax expands silu as x · (1 / (1 + e^(-x))), which over the extended reals is x · logistic x; the second
  einsum sums the gated activation against the down weights over the whole intermediate axis.
-/
import proofs.«177625_j39264591020716_2_alg».proof.Proof.Gen.ReferenceIdeal.Read
import proofs.«177625_j39264591020716_2_alg».proof.Proof.Spec

set_option maxRecDepth 16384

noncomputable section

open scoped BigOperators

namespace Cert.ReferenceIdeal.RefValue

open Cert.ReferenceIdeal Cert.ReferenceIdeal.Gen Cert.ReferenceIdeal.Read Cert.ExpertFfn
open Idealize.ShloMosaic Idealize.ShloMosaic.ValueIdx

/-- The word of 1.0 is the extended real one. -/
theorem one_f32 : Ideal.ofBits .f32 0x3F800000#32 = 1 := by
  simp [Ideal.ofBits, Ideal.ieee, -EReal.coe_mul]; norm_num

/-- The first einsum at (e, p, f) is the fused projection. -/
theorem v0_apply (x0 : SH.Idx → EReal) (x1 : SW.Idx → EReal) (e : Fin 8) (p : Fin 1024) (f : Fin 8192) :
    val_main_v0 (F := Ideal) x0 x1 (ix3 e p f) = proj x0 x1 e p f := by
  rw [val_main_v0_apply]
  unfold proj
  refine Finset.sum_congr rfl fun k _ => ?_
  have el : lidx_main_v0 (ix3 e p f) k = ix3 e p k := funext fun a => Fin.ext (by
    match a with
    | ⟨0, _⟩ => rfl
    | ⟨1, _⟩ => rfl
    | ⟨2, _⟩ => rfl)
  have er : ridx_main_v0 (ix3 e p f) k = ix3 e k f := funext fun a => Fin.ext (by
    match a with
    | ⟨0, _⟩ => rfl
    | ⟨1, _⟩ => rfl
    | ⟨2, _⟩ => rfl)
  rw [el, er]

/-- silu(gate) · up at (e, p, j) is the gated activation. -/
theorem v4_apply (x0 : SH.Idx → EReal) (x1 : SW.Idx → EReal) (e : Fin 8) (p : Fin 1024) (j : Fin 4096) :
    val_main_v4 (F := Ideal) x0 x1 (ix3 e p j) = act x0 x1 e p j := by
  have e1 : idx_main_v1 (ix3 e p j) = ix3 e p (lo j) := funext fun a => Fin.ext (by
    match a with
    | ⟨0, _⟩ => rfl
    | ⟨1, _⟩ => rfl
    | ⟨2, _⟩ => rfl)
  have e2 : idx_main_v2 (ix3 e p j) = ix3 e p (hi j) := funext fun a => Fin.ext (by
    match a with
    | ⟨0, _⟩ => rfl
    | ⟨1, _⟩ => rfl
    | ⟨2, _⟩ => rfl)
  rw [val_main_v4_apply, val_main_v3_apply, val_main_call0_v5_apply, val_main_call0_v4_apply, val_main_call0_cst_0_apply,
    val_main_call0_v3_apply, val_main_call0_v2_apply, val_main_call0_cst_apply, val_main_call0_v1_apply,
    val_main_call0_v0_apply, val_main_v1_apply, val_main_v2_apply, e1, e2, v0_apply, v0_apply]
  unfold act
  simp only [Ideal.mulf_def, Ideal.hostDivf_def, Ideal.addf_def, Ideal.hostUnary_exp_def, Ideal.hostNegf_def, Ideal.negf_def,
    Ideal.ofBits_def, one_f32]
  rfl

/-- THE REFERENCE'S RESULT is the specification of its arguments. -/
theorem result_eq (x0 : SH.Idx → EReal) (x1 : SW.Idx → EReal) (x2 : SD.Idx → EReal) :
    val_main_v5 (F := Ideal) x0 x1 x2 = G x0 x1 x2 := by
  funext i
  obtain ⟨e, p, q, rfl⟩ : ∃ (e : Fin 8) (p : Fin 1024) (q : Fin 2048), i = ix3 e p q := ⟨i 0, i 1, i 2, eq_ix3 i⟩
  rw [val_main_v5_apply]
  unfold G
  refine Finset.sum_congr rfl fun j _ => ?_
  have el : lidx_main_v5 (ix3 e p q) j = ix3 e p j := funext fun a => Fin.ext (by
    match a with
    | ⟨0, _⟩ => rfl
    | ⟨1, _⟩ => rfl
    | ⟨2, _⟩ => rfl)
  have er : ridx_main_v5 (ix3 e p q) j = ix3 e j q := funext fun a => Fin.ext (by
    match a with
    | ⟨0, _⟩ => rfl
    | ⟨1, _⟩ => rfl
    | ⟨2, _⟩ => rfl)
  rw [el, er, v4_apply]

end Cert.ReferenceIdeal.RefValue

end
-- ==== Proof.lean ====
/-
  A mixture-of-experts feed-forward block, per expert e:  out_e = (silu(h_e · G_e) ⊙ (h_e · U_e)) · D_e,
  with G_e and U_e the gate and up halves of the fused weight array.

  The kernel walks a grid of 8 experts × 32 tiles of the 4096-wide intermediate axis. At a tile it multiplies the
  expert's 1024 × 2048 hidden rows with 128 gate columns and 128 up columns, forms silu(gate) ⊙ up, multiplies
  with the matching 128 rows of the down weights and adds the 1024 × 2048 product into an accumulator: zeroed at
  the expert's first tile, written out (accumulator + last product) at its last. The reference is two einsums over
  the whole intermediate axis around silu(gate) ⊙ up.

  Over the extended reals both are the one function `ExpertFfn.G` of the three argument arrays: a change of float
  format is the identity, a matrix product into a zero accumulator is the plain sum of products, jax's expansion
  x · (1 / (1 + e^(-x))) of silu is x · logistic x, and the sum over the 4096 intermediate positions is the sum over
  the 32 tiles of the sums within each tile, added in any grouping (addition of extended reals is commutative and
  associative, so no finiteness is used). The frames: the kernel's grid run keeps the three argument arrays, the
  fused weight array being read through two windows at half a share each; the reference is a straight line of host
  operations.
-/
import proofs.«177625_j39264591020716_2_alg».proof.Defs
import proofs.«177625_j39264591020716_2_alg».proof.Proof.Gen.Kernel
import proofs.«177625_j39264591020716_2_alg».proof.Proof.Gen.Kernel.Skeleton
import proofs.«177625_j39264591020716_2_alg».proof.Proof.Gen.Kernel.Launch
import proofs.«177625_j39264591020716_2_alg».proof.Proof.Gen.Kernel.Points
import proofs.«177625_j39264591020716_2_alg».proof.Proof.Gen.KernelIdeal
import proofs.«177625_j39264591020716_2_alg».proof.Proof.Gen.KernelIdeal.Skeleton
import proofs.«177625_j39264591020716_2_alg».proof.Proof.Gen.KernelIdeal.Launch
import proofs.«177625_j39264591020716_2_alg».proof.Proof.Gen.KernelIdeal.Points
import proofs.«177625_j39264591020716_2_alg».proof.Proof.Gen.ReferenceIdeal
import proofs.«177625_j39264591020716_2_alg».proof.Proof.Gen.Pre_finite_inputs
import proofs.«177625_j39264591020716_2_alg».proof.Proof.Gen.ReferenceIdeal.Run
import proofs.«177625_j39264591020716_2_alg».proof.Proof.Gen.ReferenceIdeal.Read
import proofs.«177625_j39264591020716_2_alg».proof.Proof.K.Frame
import proofs.«177625_j39264591020716_2_alg».proof.Proof.KI.Value
import proofs.«177625_j39264591020716_2_alg».proof.Proof.Ref
import Idealize.ShloMosaic.Adequacy
import Idealize.ShloMosaic.Init

noncomputable section

namespace Cert.Proof

open Idealize.ShloMosaic Idealize.ShloMosaic.TcCoe Idealize.SL.Sem

/-- The kernel as printed keeps its argument arrays. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the specification of arguments that agree. -/
theorem algebraic : Cert.algebraic_KernelIdeal_ReferenceIdeal := by
  intro m ρ m' ρ' _ hagree
  refine ⟨fun c => Cert.KernelIdeal.HandValue.result m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
